-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S32x32 : Shape := ⟨2, ![32, 32]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S32x32 : S_.BroadcastsInDim S32x32 (![] : Fin 0 → Fin S32x32.rank)
  reducesTo_S32x32_S_d0_1 : S32x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S32x32 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S32x32 : Shape := ⟨2, ![32, 32]⟩
abbrev S4096 : Shape := ⟨1, ![4096]⟩
abbrev S4096x32x128 : Shape := ⟨3, ![4096, 32, 128]⟩
abbrev S128x32x128 : Shape := ⟨3, ![128, 32, 128]⟩
abbrev S1x32 : Shape := ⟨2, ![1, 32]⟩
abbrev S32 : Shape := ⟨1, ![32]⟩
abbrev S1x32x1 : Shape := ⟨3, ![1, 32, 1]⟩
abbrev S1x4096 : Shape := ⟨2, ![1, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S32x32, .f32⟩
  | .hbm, ⟨3, _⟩ => ⟨S4096, .f32⟩
  | .hbm, ⟨4, _⟩ => ⟨S4096x32x128, .f32⟩
  | .hbm, ⟨5, _⟩ => ⟨S4096x32x128, .bf16⟩
  | .hbm, ⟨6, _⟩ => ⟨S4096x4096, .bf16⟩
  | .hbm, ⟨7, _⟩ => ⟨S8192x4096, .bf16⟩
  | .hbm, ⟨8, _⟩ => ⟨S1x4096, .f32⟩
  | .hbm, ⟨9, _⟩ => ⟨S8192x4096, .f32⟩
  | .local _ .vmem, ⟨0, _⟩ => ⟨S128x32x128, .f32⟩
  | .local _ .vmem, ⟨1, _⟩ => ⟨S128x32x128, .f32⟩
  | .local _ .vmem, ⟨2, _⟩ => ⟨S32x32, .f32⟩
  | .local _ .vmem, ⟨3, _⟩ => ⟨S128x32x128, .bf16⟩
  | .local _ .vmem, ⟨4, _⟩ => ⟨S128x32x128, .bf16⟩
  | .local _ .vmem, ⟨5, _⟩ => ⟨S2048x1024, .bf16⟩
  | .local _ .vmem, ⟨6, _⟩ => ⟨S2048x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S2048x1024, .f32⟩
  | .local _ .vmem, ⟨12, _⟩ => ⟨S2048x1024, .f32⟩
  | .local _ .vmem, ⟨13, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let v0 : Index := Scalar.indexCast arg0
  let c0 : Index := 0#32
  ![v0.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x32x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4096x4096_S4096x32x128 : S4096x4096.ShapeCasts S4096x32x128
  h_S1x32 : 0 < S1x32.numel
  shapeCasts_S1x32_S32 : S1x32.ShapeCasts S32
  shapeCasts_S32_S1x32x1 : S32.ShapeCasts S1x32x1
  shapeCasts_S1x32x1_S1x32x1 : S1x32x1.ShapeCasts S1x32x1
  broadcasts_S1x32x1_S128x32x128 : S1x32x1.Broadcasts S128x32x128
  inb_S128x32x128_S128x32x128_0_0_0 : ∀ a, (![0, 0, 0] : Fin 3 → Nat) a + S128x32x128.size a ≤ S128x32x128.size a
  h_S128x32x128 : 0 < S128x32x128.numel
  shapeCasts_S128x32x128_S128x32x128 : S128x32x128.ShapeCasts S128x32x128
  bitsLt_bf16_f32 : FTy.bits .bf16 < FTy.bits .f32
  packedbf16_S128x32x128_S128x32x128_0_0_0 : (Rect.unit (s := S128x32x128) ![0, 0, 0] S128x32x128.size inb_S128x32x128_S128x32x128_0_0_0).PackedRows (EltTy.packing .bf16)
  shapeCasts_S4096x32x128_S4096x4096 : S4096x32x128.ShapeCasts S4096x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x1024_S1024x1024_S2048x1024_1_1_0_0_n_n_wf : DotDims.WF S2048x1024 S1024x1024 S2048x1024 [1] [1] [0] [0] [] []
  hrank0 : 0 < grid0.rank
  k0_off1_inb : ∀ i : grid0.Coords, ∀ a, (k0_off1 i) a + S1x32.size a ≤ S32x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x128.size a ≤ S4096x32x128.size a
  hwx0_0 : ∀ i : grid0.Coords, EltTy.bits .f32 = 32 ∨ (Rect.block (s := S4096x32x128) S128x32x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32x128.size a ≤ S4096x32x128.size a
  hwx0_2 : ∀ i : grid0.Coords, EltTy.bits .bf16 = 32 ∨ (Rect.block (s := S4096x32x128) S128x32x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x4096.size a
  hwx1_0 : ∀ i : grid1.Coords, EltTy.bits .bf16 = 32 ∨ (Rect.block (s := S8192x4096) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S8192x4096.size a
  hwx1_3 : ∀ i : grid1.Coords, EltTy.bits .f32 = 32 ∨ (Rect.block (s := S8192x4096) S2048x1024.size (cc1_transform_3 i) (hinb1_3 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v0) S128x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S32x32 : Shape := ⟨2, ![32, 32]⟩
abbrev S4096 : Shape := ⟨1, ![4096]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩
abbrev S32x128x32x128 : Shape := ⟨4, ![32, 128, 32, 128]⟩
abbrev S32x1x32x1 : Shape := ⟨4, ![32, 1, 32, 1]⟩
abbrev S1x4096 : Shape := ⟨2, ![1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S32x32, .f32⟩
  | .hbm, ⟨3, _⟩ => ⟨S4096, .f32⟩
  | .hbm, ⟨4, _⟩ => ⟨S8192x32x128, .f32⟩
  | .hbm, ⟨5, _⟩ => ⟨S8192x32x128, .f32⟩
  | .hbm, ⟨6, _⟩ => ⟨S_, .f32⟩
  | .hbm, ⟨7, _⟩ => ⟨S8192x32, .f32⟩
  | .hbm, ⟨8, _⟩ => ⟨S8192x32x1, .f32⟩
  | .hbm, ⟨9, _⟩ => ⟨S_, .f32⟩
  | .hbm, ⟨10, _⟩ => ⟨S8192x32x1, .f32⟩
  | .hbm, ⟨11, _⟩ => ⟨S8192x32x1, .f32⟩
  | .hbm, ⟨12, _⟩ => ⟨S_, .f32⟩
  | .hbm, ⟨13, _⟩ => ⟨S8192x32x1, .f32⟩
  | .hbm, ⟨14, _⟩ => ⟨S8192x32x1, .f32⟩
  | .hbm, ⟨15, _⟩ => ⟨S8192x32x128, .f32⟩
  | .hbm, ⟨16, _⟩ => ⟨S8192x32x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192x32x128, .f32⟩
  | .hbm, ⟨21, _⟩ => ⟨S8192x32x128, .f32⟩
  | .hbm, ⟨22, _⟩ => ⟨S_, .f32⟩
  | .hbm, ⟨23, _⟩ => ⟨S8192x32x128, .f32⟩
  | .hbm, ⟨24, _⟩ => ⟨S8192x32x128, .f32⟩
  | .hbm, ⟨25, _⟩ => ⟨S8192x32x128, .f32⟩
  | .hbm, ⟨26, _⟩ => ⟨S8192x32x128, .f32⟩
  | .hbm, ⟨27, _⟩ => ⟨S8192x4096, .f32⟩
  | .hbm, ⟨28, _⟩ => ⟨S32x128x32x128, .f32⟩
  | .hbm, ⟨29, _⟩ => ⟨S32x1x32x1, .f32⟩
  | .hbm, ⟨30, _⟩ => ⟨S32x128x32x128, .f32⟩
  | .hbm, ⟨31, _⟩ => ⟨S32x128x32x128, .f32⟩
  | .hbm, ⟨32, _⟩ => ⟨S4096x4096, .f32⟩
  | .hbm, ⟨33, _⟩ => ⟨S8192x4096, .f32⟩
  | .hbm, ⟨34, _⟩ => ⟨S1x4096, .f32⟩
  | .hbm, ⟨35, _⟩ => ⟨S8192x4096, .f32⟩
  | .hbm, ⟨36, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  shapeCasts_S8192x4096_S8192x32x128 : S8192x4096.ShapeCasts S8192x32x128
  reducesTo_S8192x32x128_S8192x32_d2 : S8192x32x128.ReducesTo [2] S8192x32
  h_S_ : 0 < S_.numel
  bcast_S8192x32_S8192x32x1_0_1 : S8192x32.BroadcastsInDim S8192x32x1 (![0, 1] : Fin 2 → Fin S8192x32x1.rank)
  bcast_S_S8192x32x1 : S_.BroadcastsInDim S8192x32x1 (![] : Fin 0 → Fin S8192x32x1.rank)
  bcast_S8192x32x1_S8192x32x128_0_1_2 : S8192x32x1.BroadcastsInDim S8192x32x128 (![0, 1, 2] : Fin 3 → Fin S8192x32x128.rank)
  bcast_S_S8192x32x128 : S_.BroadcastsInDim S8192x32x128 (![] : Fin 0 → Fin S8192x32x128.rank)
  shapeCasts_S8192x32x128_S8192x4096 : S8192x32x128.ShapeCasts S8192x4096
  shapeCasts_S4096x4096_S32x128x32x128 : S4096x4096.ShapeCasts S32x128x32x128
  bcast_S32x32_S32x1x32x1_0_2 : S32x32.BroadcastsInDim S32x1x32x1 (![0, 2] : Fin 2 → Fin S32x1x32x1.rank)
  bcast_S32x1x32x1_S32x128x32x128_0_1_2_3 : S32x1x32x1.BroadcastsInDim S32x128x32x128 (![0, 1, 2, 3] : Fin 4 → Fin S32x128x32x128.rank)
  shapeCasts_S32x128x32x128_S4096x4096 : S32x128x32x128.ShapeCasts S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.KFrameA.lean ====
/-
  The first kernel region (the weight dequantization), at any contents `V` of the core's buffers when the region is
  entered. The grid has 32 points; point `t` stages rows `128 t … 128 t + 127` of the weights (viewed as
  `[4096, 32, 128]`) and the whole `[32, 32]` array of scales, and the body stores, into the output's staging buffer, the
  staged rows times row `t` of the scales broadcast along the first and last axes. One control case, whole-rectangle
  loads and one whole-rectangle store: the body's run, the proof data and the body obligation.
-/
import proofs.«122168_j27745488732276_2_alg».proof.Proof.Gen.Kernel.Launch
import proofs.«122168_j27745488732276_2_alg».proof.Proof.Gen.Kernel.Skeleton
import proofs.«122168_j27745488732276_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of a staged block of weights, and row `i` of the scales. -/
abbrev r0_0 : Rect S128x32x128 := Rect.unit (s := S128x32x128) ![0, 0, 0] S128x32x128.size inb_S128x32x128_S128x32x128_0_0_0
abbrev r0_1 (i : grid0.Coords) : Rect S32x32 := Rect.unit (s := S32x32) (k0_off1 i) S1x32.size (k0_off1_inb i)

/-- What the body leaves in the output's staging buffer at grid coordinates `i`, from the two input blocks: its one
    store, through the whole rectangle. -/
def out0_2 (i : grid0.Coords) (x0 : Vec F S128x32x128 .f32) (x1 : Vec F S32x32 .f32) : Vec F S128x32x128 .bf16 :=
  View.canon [⟨r0_0, k0_pay1 (View.ld x1 (r0_1 i)) (View.ld x0 r0_0)⟩]

theorem cover0_2 (p0 : Vec F S128x32x128 .bf16) (y : S128x32x128.Idx) :
    ∃ pc ∈ ([⟨r0_0, p0⟩] : List (View.Piece (Elt F) S128x32x128 .bf16)), y ∈ pc.1.set :=
  View.cover_of_tiled [⟨r0_0, p0⟩] S128x32x128.size (by rfl) y

set_option maxHeartbeats 1000000 in
/-- The body on whole staging memrefs, the inputs' at contents `x0`, `x1` and the output's at anything, runs to the
    continuation holding the inputs' as they were and the output's at `out0_2`. -/
theorem sound_kernel0 (c : Dev nD) (E : Set ℕ) (i : grid0.Coords) (arg1 : Memref sig .tc .vmem S128x32x128 .f32) (harg1 : arg1.IsWhole)
    (arg2 : Memref sig .tc .vmem S32x32 .f32) (harg2 : arg2.IsWhole) (arg3 : Memref sig .tc .vmem S128x32x128 .bf16) (harg3 : arg3.IsWhole)
    (x0 : Vec F S128x32x128 .f32) (x1 : Vec F S32x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 i x0 x1)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as the region finds them; after the body at point `t`
    each input's buffer at its block and the output's at `out0_2` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (grid0.coords t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (grid0.coords t) (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KFrameR0.lean ====
/-
  The second kernel region (the matrix product accumulated over the contraction's four blocks), what its runs share.
  The grid is 4 × 4 × 4, the last coordinate `k` (the point's number mod 4) the contraction block. The body zeroes its
  scratch accumulator where `k = 0`, adds the product of the two staged blocks into it at every point, and where
  `k = 3` stores the accumulator plus the staged bias row into the output's staging buffer; elsewhere the output's
  buffer is left untouched and is not written back. Here: the two branch conditions in closed form over the grid, where
  the output window is idle, the staging and scratch memrefs, and the region's invariant with the scratch split out.
-/
import proofs.«122168_j27745488732276_2_alg».proof.Proof.Gen.Kernel.Launch
import proofs.«122168_j27745488732276_2_alg».proof.Proof.Gen.Kernel.Skeleton
import proofs.«122168_j27745488732276_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first branch (zero the accumulator) is taken where the last coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second branch (store the output) is taken where the last coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second branch is not taken the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S2048x1024 .f32 := (Memref.whole cc1_stg3_0 : Memref sig .tc .vmem S2048x1024 .f32).view
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)
/-- The scratch accumulator: a whole scoped buffer of the kernel's own. -/
abbrev scM1_0 : Memref sig .tc .vmem S2048x1024 .f32 := Memref.whole cc1_scratch0
abbrev VS1_0 : View sig .tc .vmem S2048x1024 .f32 := scM1_0.view

/-- The core's scoped buffers that are neither a staging buffer of this region nor its scratch (the first region's
    staging buffers), each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The region's invariant with the scratch accumulator as a memref owned at some contents. -/
theorem PhiA1_split (c : Dev nD) :
    (Pipeline.ΦA spec1 c : sProp 𝕄)
      ⊣⊢ iprop(others1 (F := F) c ∗ (∃ d, owns (c : Thread nD τ) scM1_0 fullShare d) ∗ (∃ r, prngReg c r)) := by
  unfold Pipeline.ΦA others1; rw [scopedRest1_eq]; simp only [scM1_0, owns_whole]
  constructor
  · iintro ⟨⟨A, B, C, D, E, S⟩, G⟩
    isplitl [A B C D E]
    · isplitl [A]; · iexact A
      isplitl [B]; · iexact B
      isplitl [C]; · iexact C
      isplitl [D]; · iexact D
      iexact E
    isplitl [S]; · iexact S
    iexact G
  · iintro ⟨⟨A, B, C, D, E⟩, S, G⟩
    isplitl [A B C D E S]
    · isplitl [A]; · iexact A
      isplitl [B]; · iexact B
      isplitl [C]; · iexact C
      isplitl [D]; · iexact D
      isplitl [E]; · iexact E
      iexact S
    iexact G

end Cert.Kernel.Hand

end
-- ==== Proof.KFrameRA.lean ====
/-
  The second region's body where the last grid coordinate is 0: the accumulator is zeroed, then the product of the two
  staged blocks is added into it; the output's buffer is untouched. The run, with the pieces the accumulator ends with
  as its witness.
-/
import proofs.«122168_j27745488732276_2_alg».proof.Proof.KFrameR0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x1024 .bf16) (x1 : Vec F S1024x1024 .bf16) (x2 : Vec F S1x1024 .f32) :
    { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KFrameRB.lean ====
/-
  The second region's body where the last grid coordinate is 1 or 2: the product of the two staged blocks is added into
  the accumulator the point before left; the output's buffer is untouched.
-/
import proofs.«122168_j27745488732276_2_alg».proof.Proof.KFrameRA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x1024 .bf16) (x1 : Vec F S1024x1024 .bf16) (x2 : Vec F S1x1024 .f32) (xs0 : Vec F S2048x1024 .f32) :
    { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KFrameRC.lean ====
/-
  The second region's body where the last grid coordinate is 3: the product of the two staged blocks is added into the
  accumulator the point before left, and the accumulator plus the staged bias row is stored into the output's buffer.
-/
import proofs.«122168_j27745488732276_2_alg».proof.Proof.KFrameRB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x1024 .bf16) (x1 : Vec F S1024x1024 .bf16) (x2 : Vec F S1x1024 .f32) (xs0 : Vec F S2048x1024 .f32) :
    Σ' (L3 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.LibWholeStores.lean ====
/-
  Whole-buffer loads and stores. A kernel body that keeps an accumulator in a buffer reads and writes it through
  the rectangle at zero offsets of the buffer's own extents. Through that rectangle a load reads the contents, a
  store leaves its payload whatever was stored before, and a load after such a store reads the payload. The
  statements are over any view, any value type and any earlier list of stores.
-/
import Idealize.ShloMosaic.Lib.Pipeline.Value
import Idealize.ShloMosaic.Lib.Pipeline.Frame
import Idealize.ShloMosaic.Lib.Pipeline.FrameBody

noncomputable section

namespace Idealize.ShloMosaic.WholeStores

open Idealize.ShloMosaic

variable {Val : EltTy → Type} {S : Shape} {e : EltTy}

/-- After a list of stores whose LAST one goes through the whole rectangle, the buffer reads as that store's
    payload: earlier stores and earlier contents are overwritten. -/
theorem read_writes_whole_last [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A load through the whole rectangle, after stores the last of which went through the whole rectangle, reads
    that store's payload. -/
theorem readCov_whole_last [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.mem_cons_self, View.mem_set_unit_zero h inb y⟩),
    View.canon_cons_unit_zero h inb, View.ld_unit_zero h inb]

/-- A load through the whole rectangle of a whole buffer whose contents read as X reads X. -/
theorem readAt_whole_unread {sig : RefSig} {κ : Kind} {sp : Space} {m : Memref sig κ sp S e} (hm : m.IsWhole)
    {off : Fin S.rank → Nat} (h : off = fun _ => 0) (inb : ∀ a, off a + S.size a ≤ S.size a) (X : S.Idx → Val e) :
    m.view.readAt Val (Rect.unit off S.size inb).toLoadRect (hm.unread X) = X := by
  rw [View.readAt_eq_ld, hm.read_unread, View.ld_unit_zero h inb]

end Idealize.ShloMosaic.WholeStores

end
-- ==== Proof.KFrameR.lean ====
/-
  The second kernel region, at any contents `V` of the core's buffers when the region is entered: what the scratch
  accumulator and the output's staging buffer hold after each grid point, the region's invariant (the accumulator at
  what the point before left), the proof data and the body obligation.

  After point `n` the accumulator holds the product of the point's two staged blocks added to zero where `n mod 4 = 0`
  and to what point `n - 1` left otherwise — so after a point with `n mod 4 = k` it holds the sum of the first `k + 1`
  block products of the point's output block. Where `n mod 4 = 3` the output's staging buffer receives that sum plus
  the staged bias row.
-/
import proofs.«122168_j27745488732276_2_alg».proof.Proof.KFrameRC
import proofs.«122168_j27745488732276_2_alg».proof.Proof.LibWholeStores

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-! ## What each case's stores leave, as values -/

/-- Where the accumulator is zeroed first: it ends at the block product added to the zero fill. -/
theorem scratch_A (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x1024 .bf16) (x1 : Vec F S1024x1024 .bf16) (x2 : Vec F S1x1024 .f32) (f : arg7.view.ty.Contents (Elt F)) :
    arg7.view.read (Elt F) (arg7.view.writes (Elt F) f (kernelRun1_A c i arg3 harg3 arg4 harg4 arg5 harg5 arg6 harg6 arg7 harg7 hc0 hc1 x0 x1 x2).1)
      = k1_pay2 x0 x1 (k1_pay1 (F := F)) := by
  unfold kernelRun1_A; dsimp only; sl_unfold_words
  rw [WholeStores.read_writes_whole_last _ _ hz2, WholeStores.readCov_whole_last _ hz2,
    WholeStores.readAt_whole_unread harg3 hz2, WholeStores.readAt_whole_unread harg4 hz2]

/-- Elsewhere it ends at the block product added to what it held. -/
theorem scratch_B (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x1024 .bf16) (x1 : Vec F S1024x1024 .bf16) (x2 : Vec F S1x1024 .f32) (xs0 : Vec F S2048x1024 .f32) (f : arg7.view.ty.Contents (Elt F)) :
    arg7.view.read (Elt F) (arg7.view.writes (Elt F) f (kernelRun1_B c i arg3 harg3 arg4 harg4 arg5 harg5 arg6 harg6 arg7 harg7 hc0 hc1 x0 x1 x2 xs0).1)
      = k1_pay2 x0 x1 xs0 := by
  unfold kernelRun1_B; dsimp only; sl_unfold_words
  rw [WholeStores.read_writes_whole_last _ _ hz2,
    WholeStores.readAt_whole_unread harg3 hz2, WholeStores.readAt_whole_unread harg4 hz2, WholeStores.readAt_whole_unread harg7 hz2]

theorem scratch_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x1024 .bf16) (x1 : Vec F S1024x1024 .bf16) (x2 : Vec F S1x1024 .f32) (xs0 : Vec F S2048x1024 .f32) (f : arg7.view.ty.Contents (Elt F)) :
    arg7.view.read (Elt F) (arg7.view.writes (Elt F) f (kernelRun1_C c i arg3 harg3 arg4 harg4 arg5 harg5 arg6 harg6 arg7 harg7 hc0 hc1 x0 x1 x2 xs0).2.1)
      = k1_pay2 x0 x1 xs0 := by
  unfold kernelRun1_C; dsimp only; sl_unfold_words
  rw [WholeStores.read_writes_whole_last _ _ hz2,
    WholeStores.readAt_whole_unread harg3 hz2, WholeStores.readAt_whole_unread harg4 hz2, WholeStores.readAt_whole_unread harg7 hz2]

/-- Where the output is stored, its buffer ends at the accumulator's new contents plus the bias row. -/
theorem output_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x1024 .bf16) (x1 : Vec F S1024x1024 .bf16) (x2 : Vec F S1x1024 .f32) (xs0 : Vec F S2048x1024 .f32) (f : arg6.view.ty.Contents (Elt F)) :
    arg6.view.read (Elt F) (arg6.view.writes (Elt F) f (kernelRun1_C c i arg3 harg3 arg4 harg4 arg5 harg5 arg6 harg6 arg7 harg7 hc0 hc1 x0 x1 x2 xs0).1)
      = k1_pay3 x2 (k1_pay2 x0 x1 xs0) := by
  unfold kernelRun1_C; dsimp only; sl_unfold_words
  rw [WholeStores.read_writes_whole_last _ _ hz2, WholeStores.readCov_whole_last _ hz2,
    WholeStores.readAt_whole_unread harg3 hz2, WholeStores.readAt_whole_unread harg4 hz2, WholeStores.readAt_whole_unread harg7 hz2,
    WholeStores.readAt_whole_unread harg5 hz2]

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION: what the scratch accumulator holds after the body at position `n`. -/
def accAt (c : Dev nD) : (n : ℕ) → n < cfg1.N → Vec F S2048x1024 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt c n (Nat.lt_of_succ_lt hn))

/-- What the output's staging buffer is given at position `n` (where it is stored at all): the accumulator's new
    contents plus the staged bias row. -/
def outAt (c : Dev nD) (n : ℕ) (hn : n < cfg1.N) : Vec F S2048x1024 .f32 :=
  k1_pay3 (iblk1 V c 2 ⟨n, hn⟩) (accAt V c n hn)

theorem accAt_first (c : Dev nD) (t : Fin cfg1.N) (h0 : t.val % 4 = 0) :
    accAt V c t.val t.isLt = k1_pay2 (iblk1 V c 0 t) (iblk1 V c 1 t) (k1_pay1 (F := F)) := by
  obtain ⟨n, hn⟩ := t
  cases n with
  | zero => rfl
  | succ n => exact if_pos h0

theorem accAt_next (c : Dev nD) (t : Fin cfg1.N) (h0 : ¬t.val % 4 = 0) :
    accAt V c t.val t.isLt = k1_pay2 (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h0
  | succ n => exact if_neg h0

/-- The region invariant before position `n`: before the first point every scoped buffer that is no staging buffer at
    anything; afterwards the accumulator at what the point before left. -/
def PhiS (c : Dev nD) : (n : ℕ) → n ≤ cfg1.N → sProp 𝕄
  | 0, _ => Pipeline.ΦA spec1 c
  | n + 1, hn => iprop(others1 (F := F) c ∗ owns (c : Thread nD τ) scM1_0 fullShare (accAt V c n hn) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(others1 (F := F) c ∗ owns (c : Thread nD τ) scM1_0 fullShare (accAt V c n hn) ∗ (∃ r, prngReg c r)) := rfl
theorem PhiS_pos (c : Dev nD) (n : ℕ) (h : n ≤ cfg1.N) (hz : n ≠ 0) :
    PhiS V c n h = iprop(others1 (F := F) c ∗ owns (c : Thread nD τ) scM1_0 fullShare (accAt V c (n - 1) (by omega)) ∗ (∃ r, prngReg c r)) := by
  cases n with
  | zero => exact absurd rfl hz
  | succ n => rfl

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's number mod 4 says which case it is in;
    the invariant hands the body the accumulator at what the point before left (at anything at the first point) and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  have hN : t.val < 64 := lt_of_lt_of_eq t.isLt (show cfg1.N = 64 from N_1)
  by_cases h0 : t.val % 4 = 0
  · have h1 : ¬t.val % 4 = 3 := by omega
    have hc1 : ¬cond1_1 (grid1.coords t) := fun h => h1 ((hcond1_1 t).mp h)
    rw [Dat.leavesExact_idle (dat1 V c) 3 t (idleAt1_3 t hc1) (noFlush1_3 t hc1)]
    rw [accAt_first V c t h0]
    have hrun := (kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) hc1 (iblk1 V c 0 t) (iblk1 V c 1 t) (iblk1 V c 2 t)).2
    have hΦ : PhiS V c t.val (Nat.le_of_lt t.isLt) ⊢ iprop(others1 (F := F) c ∗ (∃ d, owns (c : Thread nD τ) scM1_0 fullShare d) ∗ (∃ r, prngReg c r)) := by
      by_cases hz : t.val = 0
      · rw [PhiS_zero V c _ _ hz]; exact (PhiA1_split c).1
      · rw [PhiS_pos V c _ _ hz]
        iintro ⟨Hoth, HS0, Hg⟩
        isplitl [Hoth]; · iexact Hoth
        isplitl [HS0]; · iexists _; iexact HS0
        iexact Hg
    rw [PhiS_castSucc V c t]
    iintro ⟨HΦ, Ho, ⟨%d0, H0⟩, ⟨%d1, H1⟩, ⟨%d2, H2⟩, ⟨%d3, H3⟩⟩
    ihave HΦ' := hΦ $$ HΦ
    icases HΦ' with ⟨Hoth, HS0, Hg⟩
    iapply (hrun _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [Hoth HS0 Hg]
    · isplitl [Hoth]; · iexact Hoth
      isplitl [HS0]
      · unfold owns; iexists _; isplitr
        swap; · iexact HS0
        ipureintro; exact scratch_A c _ _ _ _ _ _ _ _ _ _ _ _ _ _ _ _ _
      iexact Hg
    isplitl [Ho]; · iexact Ho
    isplitl [H0]; · iexact H0
    isplitl [H1]; · iexact H1
    isplitl [H2]; · iexact H2
    iexists _; iexact H3
  · have hz : t.val ≠ 0 := fun h => h0 (by rw [h])
    have hc0 : ¬cond1_0 (grid1.coords t) := fun h => h0 ((hcond1_0 t).mp h)
    rw [accAt_next V c t h0]
    rw [PhiS_castSucc V c t, PhiS_pos V c _ _ hz]
    by_cases h1 : t.val % 4 = 3
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      unfold outAt
      rw [accAt_next V c t h0]
      have hrun := (kernelRun1_C c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) (accAt V c (t.val - 1) (Nat.lt_of_le_of_lt (Nat.sub_le _ _) t.isLt))).2.2
      iintro ⟨⟨Hoth, HS0, Hg⟩, Ho, ⟨%d0, H0⟩, ⟨%d1, H1⟩, ⟨%d2, H2⟩, ⟨%d3, H3⟩⟩
      iapply (hrun Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hoth HS0 Hg]
      · isplitl [Hoth]; · iexact Hoth
        isplitl [HS0]
        · unfold owns; iexists _; isplitr
          swap; · iexact HS0
          ipureintro; exact scratch_C c _ _ _ _ _ _ _ _ _ _ _ _ _ _ _ _ _ _
        iexact Hg
      isplitl [Ho]; · iexact Ho
      isplitl [H0]; · iexact H0
      isplitl [H1]; · iexact H1
      isplitl [H2]; · iexact H2
      unfold owns; iexists _; isplitr
      swap; · iexact H3
      ipureintro; exact output_C c _ _ _ _ _ _ _ _ _ _ _ _ _ _ _ _ _ _
    · have hc1 : ¬cond1_1 (grid1.coords t) := fun h => h1 ((hcond1_1 t).mp h)
      rw [Dat.leavesExact_idle (dat1 V c) 3 t (idleAt1_3 t hc1) (noFlush1_3 t hc1)]
      have hrun := (kernelRun1_B c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) (accAt V c (t.val - 1) (Nat.lt_of_le_of_lt (Nat.sub_le _ _) t.isLt))).2
      iintro ⟨⟨Hoth, HS0, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hoth HS0 Hg]
      · isplitl [Hoth]; · iexact Hoth
        isplitl [HS0]
        · unfold owns; iexists _; isplitr
          swap; · iexact HS0
          ipureintro; exact scratch_B c _ _ _ _ _ _ _ _ _ _ _ _ _ _ _ _ _ _
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the region's entry form back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ ht]
  refine BIBase.Entails.trans ?_ (PhiA1_split c).2
  iintro ⟨Hoth, HS0, Hg⟩
  isplitl [Hoth]; · iexact Hoth
  isplitl [HS0]; · iexists _; iexact HS0
  iexact Hg

end Region1

end Cert.Kernel.Hand

end
-- ==== Proof.KFrameRun.lean ====
/-
  The whole run. The core's unscoped buffers at each boundary of the program — at launch, after the reshape of the
  weights, after the first kernel region (its output array at what its write-backs leave), after the second stretch of
  host operations, after the second kernel region — as one fold from the launch memory; every pipeline's proof data at
  its region's entry contents; the two regions and the two host stretches as segments; and the run: every weakly fair
  execution terminates with every unscoped buffer at the last boundary's contents. The arguments are written by no
  stretch and no region, so they end as launched.
-/
import proofs.«122168_j27745488732276_2_alg».proof.Proof.KFrameA
import proofs.«122168_j27745488732276_2_alg».proof.Proof.KFrameR
import proofs.«122168_j27745488732276_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every weakly fair execution terminates, nothing faulting, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Hand

end
-- ==== Proof.FrameA.lean ====
/-
  The first kernel region (the weight dequantization), at any contents `V` of the core's buffers when the region is
  entered. The grid has 32 points; point `t` stages rows `128 t … 128 t + 127` of the weights (viewed as
  `[4096, 32, 128]`) and the whole `[32, 32]` array of scales, and the body stores, into the output's staging buffer, the
  staged rows times row `t` of the scales broadcast along the first and last axes. One control case, whole-rectangle
  loads and one whole-rectangle store: the body's run, the proof data and the body obligation.
-/
import proofs.«122168_j27745488732276_2_alg».proof.Proof.Gen.KernelIdeal.Launch
import proofs.«122168_j27745488732276_2_alg».proof.Proof.Gen.KernelIdeal.Skeleton
import proofs.«122168_j27745488732276_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of a staged block of weights, and row `i` of the scales. -/
abbrev r0_0 : Rect S128x32x128 := Rect.unit (s := S128x32x128) ![0, 0, 0] S128x32x128.size inb_S128x32x128_S128x32x128_0_0_0
abbrev r0_1 (i : grid0.Coords) : Rect S32x32 := Rect.unit (s := S32x32) (k0_off1 i) S1x32.size (k0_off1_inb i)

/-- What the body leaves in the output's staging buffer at grid coordinates `i`, from the two input blocks: its one
    store, through the whole rectangle. -/
def out0_2 (i : grid0.Coords) (x0 : Vec F S128x32x128 .f32) (x1 : Vec F S32x32 .f32) : Vec F S128x32x128 .bf16 :=
  View.canon [⟨r0_0, k0_pay1 (View.ld x1 (r0_1 i)) (View.ld x0 r0_0)⟩]

theorem cover0_2 (p0 : Vec F S128x32x128 .bf16) (y : S128x32x128.Idx) :
    ∃ pc ∈ ([⟨r0_0, p0⟩] : List (View.Piece (Elt F) S128x32x128 .bf16)), y ∈ pc.1.set :=
  View.cover_of_tiled [⟨r0_0, p0⟩] S128x32x128.size (by rfl) y

set_option maxHeartbeats 1000000 in
/-- The body on whole staging memrefs, the inputs' at contents `x0`, `x1` and the output's at anything, runs to the
    continuation holding the inputs' as they were and the output's at `out0_2`. -/
theorem sound_kernel0 (c : Dev nD) (E : Set ℕ) (i : grid0.Coords) (arg1 : Memref sig .tc .vmem S128x32x128 .f32) (harg1 : arg1.IsWhole)
    (arg2 : Memref sig .tc .vmem S32x32 .f32) (harg2 : arg2.IsWhole) (arg3 : Memref sig .tc .vmem S128x32x128 .bf16) (harg3 : arg3.IsWhole)
    (x0 : Vec F S128x32x128 .f32) (x1 : Vec F S32x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 i x0 x1)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as the region finds them; after the body at point `t`
    each input's buffer at its block and the output's at `out0_2` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (grid0.coords t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (grid0.coords t) (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.FrameR0.lean ====
/-
  The second kernel region (the matrix product accumulated over the contraction's four blocks), what its runs share.
  The grid is 4 × 4 × 4, the last coordinate `k` (the point's number mod 4) the contraction block. The body zeroes its
  scratch accumulator where `k = 0`, adds the product of the two staged blocks into it at every point, and where
  `k = 3` stores the accumulator plus the staged bias row into the output's staging buffer; elsewhere the output's
  buffer is left untouched and is not written back. Here: the two branch conditions in closed form over the grid, where
  the output window is idle, the staging and scratch memrefs, and the region's invariant with the scratch split out.
-/
import proofs.«122168_j27745488732276_2_alg».proof.Proof.Gen.KernelIdeal.Launch
import proofs.«122168_j27745488732276_2_alg».proof.Proof.Gen.KernelIdeal.Skeleton
import proofs.«122168_j27745488732276_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first branch (zero the accumulator) is taken where the last coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second branch (store the output) is taken where the last coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second branch is not taken the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S2048x1024 .f32 := (Memref.whole cc1_stg3_0 : Memref sig .tc .vmem S2048x1024 .f32).view
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)
/-- The scratch accumulator: a whole scoped buffer of the kernel's own. -/
abbrev scM1_0 : Memref sig .tc .vmem S2048x1024 .f32 := Memref.whole cc1_scratch0
abbrev VS1_0 : View sig .tc .vmem S2048x1024 .f32 := scM1_0.view

/-- The core's scoped buffers that are neither a staging buffer of this region nor its scratch (the first region's
    staging buffers), each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The region's invariant with the scratch accumulator as a memref owned at some contents. -/
theorem PhiA1_split (c : Dev nD) :
    (Pipeline.ΦA spec1 c : sProp 𝕄)
      ⊣⊢ iprop(others1 (F := F) c ∗ (∃ d, owns (c : Thread nD τ) scM1_0 fullShare d) ∗ (∃ r, prngReg c r)) := by
  unfold Pipeline.ΦA others1; rw [scopedRest1_eq]; simp only [scM1_0, owns_whole]
  constructor
  · iintro ⟨⟨A, B, C, D, E, S⟩, G⟩
    isplitl [A B C D E]
    · isplitl [A]; · iexact A
      isplitl [B]; · iexact B
      isplitl [C]; · iexact C
      isplitl [D]; · iexact D
      iexact E
    isplitl [S]; · iexact S
    iexact G
  · iintro ⟨⟨A, B, C, D, E⟩, S, G⟩
    isplitl [A B C D E S]
    · isplitl [A]; · iexact A
      isplitl [B]; · iexact B
      isplitl [C]; · iexact C
      isplitl [D]; · iexact D
      isplitl [E]; · iexact E
      iexact S
    iexact G

end Cert.KernelIdeal.Hand

end
-- ==== Proof.FrameRA.lean ====
/-
  The second region's body where the last grid coordinate is 0: the accumulator is zeroed, then the product of the two
  staged blocks is added into it; the output's buffer is untouched. The run, with the pieces the accumulator ends with
  as its witness.
-/
import proofs.«122168_j27745488732276_2_alg».proof.Proof.FrameR0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x1024 .bf16) (x1 : Vec F S1024x1024 .bf16) (x2 : Vec F S1x1024 .f32) :
    { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.FrameRB.lean ====
/-
  The second region's body where the last grid coordinate is 1 or 2: the product of the two staged blocks is added into
  the accumulator the point before left; the output's buffer is untouched.
-/
import proofs.«122168_j27745488732276_2_alg».proof.Proof.FrameRA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x1024 .bf16) (x1 : Vec F S1024x1024 .bf16) (x2 : Vec F S1x1024 .f32) (xs0 : Vec F S2048x1024 .f32) :
    { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.FrameRC.lean ====
/-
  The second region's body where the last grid coordinate is 3: the product of the two staged blocks is added into the
  accumulator the point before left, and the accumulator plus the staged bias row is stored into the output's buffer.
-/
import proofs.«122168_j27745488732276_2_alg».proof.Proof.FrameRB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x1024 .bf16) (x1 : Vec F S1024x1024 .bf16) (x2 : Vec F S1x1024 .f32) (xs0 : Vec F S2048x1024 .f32) :
    Σ' (L3 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.FrameR.lean ====
/-
  The second kernel region, at any contents `V` of the core's buffers when the region is entered: what the scratch
  accumulator and the output's staging buffer hold after each grid point, the region's invariant (the accumulator at
  what the point before left), the proof data and the body obligation.

  After point `n` the accumulator holds the product of the point's two staged blocks added to zero where `n mod 4 = 0`
  and to what point `n - 1` left otherwise — so after a point with `n mod 4 = k` it holds the sum of the first `k + 1`
  block products of the point's output block. Where `n mod 4 = 3` the output's staging buffer receives that sum plus
  the staged bias row.
-/
import proofs.«122168_j27745488732276_2_alg».proof.Proof.FrameRC
import proofs.«122168_j27745488732276_2_alg».proof.Proof.LibWholeStores

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-! ## What each case's stores leave, as values -/

/-- Where the accumulator is zeroed first: it ends at the block product added to the zero fill. -/
theorem scratch_A (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x1024 .bf16) (x1 : Vec F S1024x1024 .bf16) (x2 : Vec F S1x1024 .f32) (f : arg7.view.ty.Contents (Elt F)) :
    arg7.view.read (Elt F) (arg7.view.writes (Elt F) f (kernelRun1_A c i arg3 harg3 arg4 harg4 arg5 harg5 arg6 harg6 arg7 harg7 hc0 hc1 x0 x1 x2).1)
      = k1_pay2 x0 x1 (k1_pay1 (F := F)) := by
  unfold kernelRun1_A; dsimp only; sl_unfold_words
  rw [WholeStores.read_writes_whole_last _ _ hz2, WholeStores.readCov_whole_last _ hz2,
    WholeStores.readAt_whole_unread harg3 hz2, WholeStores.readAt_whole_unread harg4 hz2]

/-- Elsewhere it ends at the block product added to what it held. -/
theorem scratch_B (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x1024 .bf16) (x1 : Vec F S1024x1024 .bf16) (x2 : Vec F S1x1024 .f32) (xs0 : Vec F S2048x1024 .f32) (f : arg7.view.ty.Contents (Elt F)) :
    arg7.view.read (Elt F) (arg7.view.writes (Elt F) f (kernelRun1_B c i arg3 harg3 arg4 harg4 arg5 harg5 arg6 harg6 arg7 harg7 hc0 hc1 x0 x1 x2 xs0).1)
      = k1_pay2 x0 x1 xs0 := by
  unfold kernelRun1_B; dsimp only; sl_unfold_words
  rw [WholeStores.read_writes_whole_last _ _ hz2,
    WholeStores.readAt_whole_unread harg3 hz2, WholeStores.readAt_whole_unread harg4 hz2, WholeStores.readAt_whole_unread harg7 hz2]

theorem scratch_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x1024 .bf16) (x1 : Vec F S1024x1024 .bf16) (x2 : Vec F S1x1024 .f32) (xs0 : Vec F S2048x1024 .f32) (f : arg7.view.ty.Contents (Elt F)) :
    arg7.view.read (Elt F) (arg7.view.writes (Elt F) f (kernelRun1_C c i arg3 harg3 arg4 harg4 arg5 harg5 arg6 harg6 arg7 harg7 hc0 hc1 x0 x1 x2 xs0).2.1)
      = k1_pay2 x0 x1 xs0 := by
  unfold kernelRun1_C; dsimp only; sl_unfold_words
  rw [WholeStores.read_writes_whole_last _ _ hz2,
    WholeStores.readAt_whole_unread harg3 hz2, WholeStores.readAt_whole_unread harg4 hz2, WholeStores.readAt_whole_unread harg7 hz2]

/-- Where the output is stored, its buffer ends at the accumulator's new contents plus the bias row. -/
theorem output_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x1024 .bf16) (x1 : Vec F S1024x1024 .bf16) (x2 : Vec F S1x1024 .f32) (xs0 : Vec F S2048x1024 .f32) (f : arg6.view.ty.Contents (Elt F)) :
    arg6.view.read (Elt F) (arg6.view.writes (Elt F) f (kernelRun1_C c i arg3 harg3 arg4 harg4 arg5 harg5 arg6 harg6 arg7 harg7 hc0 hc1 x0 x1 x2 xs0).1)
      = k1_pay3 x2 (k1_pay2 x0 x1 xs0) := by
  unfold kernelRun1_C; dsimp only; sl_unfold_words
  rw [WholeStores.read_writes_whole_last _ _ hz2, WholeStores.readCov_whole_last _ hz2,
    WholeStores.readAt_whole_unread harg3 hz2, WholeStores.readAt_whole_unread harg4 hz2, WholeStores.readAt_whole_unread harg7 hz2,
    WholeStores.readAt_whole_unread harg5 hz2]

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION: what the scratch accumulator holds after the body at position `n`. -/
def accAt (c : Dev nD) : (n : ℕ) → n < cfg1.N → Vec F S2048x1024 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt c n (Nat.lt_of_succ_lt hn))

/-- What the output's staging buffer is given at position `n` (where it is stored at all): the accumulator's new
    contents plus the staged bias row. -/
def outAt (c : Dev nD) (n : ℕ) (hn : n < cfg1.N) : Vec F S2048x1024 .f32 :=
  k1_pay3 (iblk1 V c 2 ⟨n, hn⟩) (accAt V c n hn)

theorem accAt_first (c : Dev nD) (t : Fin cfg1.N) (h0 : t.val % 4 = 0) :
    accAt V c t.val t.isLt = k1_pay2 (iblk1 V c 0 t) (iblk1 V c 1 t) (k1_pay1 (F := F)) := by
  obtain ⟨n, hn⟩ := t
  cases n with
  | zero => rfl
  | succ n => exact if_pos h0

theorem accAt_next (c : Dev nD) (t : Fin cfg1.N) (h0 : ¬t.val % 4 = 0) :
    accAt V c t.val t.isLt = k1_pay2 (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h0
  | succ n => exact if_neg h0

/-- The region invariant before position `n`: before the first point every scoped buffer that is no staging buffer at
    anything; afterwards the accumulator at what the point before left. -/
def PhiS (c : Dev nD) : (n : ℕ) → n ≤ cfg1.N → sProp 𝕄
  | 0, _ => Pipeline.ΦA spec1 c
  | n + 1, hn => iprop(others1 (F := F) c ∗ owns (c : Thread nD τ) scM1_0 fullShare (accAt V c n hn) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(others1 (F := F) c ∗ owns (c : Thread nD τ) scM1_0 fullShare (accAt V c n hn) ∗ (∃ r, prngReg c r)) := rfl
theorem PhiS_pos (c : Dev nD) (n : ℕ) (h : n ≤ cfg1.N) (hz : n ≠ 0) :
    PhiS V c n h = iprop(others1 (F := F) c ∗ owns (c : Thread nD τ) scM1_0 fullShare (accAt V c (n - 1) (by omega)) ∗ (∃ r, prngReg c r)) := by
  cases n with
  | zero => exact absurd rfl hz
  | succ n => rfl

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's number mod 4 says which case it is in;
    the invariant hands the body the accumulator at what the point before left (at anything at the first point) and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  have hN : t.val < 64 := lt_of_lt_of_eq t.isLt (show cfg1.N = 64 from N_1)
  by_cases h0 : t.val % 4 = 0
  · have h1 : ¬t.val % 4 = 3 := by omega
    have hc1 : ¬cond1_1 (grid1.coords t) := fun h => h1 ((hcond1_1 t).mp h)
    rw [Dat.leavesExact_idle (dat1 V c) 3 t (idleAt1_3 t hc1) (noFlush1_3 t hc1)]
    rw [accAt_first V c t h0]
    have hrun := (kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) hc1 (iblk1 V c 0 t) (iblk1 V c 1 t) (iblk1 V c 2 t)).2
    have hΦ : PhiS V c t.val (Nat.le_of_lt t.isLt) ⊢ iprop(others1 (F := F) c ∗ (∃ d, owns (c : Thread nD τ) scM1_0 fullShare d) ∗ (∃ r, prngReg c r)) := by
      by_cases hz : t.val = 0
      · rw [PhiS_zero V c _ _ hz]; exact (PhiA1_split c).1
      · rw [PhiS_pos V c _ _ hz]
        iintro ⟨Hoth, HS0, Hg⟩
        isplitl [Hoth]; · iexact Hoth
        isplitl [HS0]; · iexists _; iexact HS0
        iexact Hg
    rw [PhiS_castSucc V c t]
    iintro ⟨HΦ, Ho, ⟨%d0, H0⟩, ⟨%d1, H1⟩, ⟨%d2, H2⟩, ⟨%d3, H3⟩⟩
    ihave HΦ' := hΦ $$ HΦ
    icases HΦ' with ⟨Hoth, HS0, Hg⟩
    iapply (hrun _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [Hoth HS0 Hg]
    · isplitl [Hoth]; · iexact Hoth
      isplitl [HS0]
      · unfold owns; iexists _; isplitr
        swap; · iexact HS0
        ipureintro; exact scratch_A c _ _ _ _ _ _ _ _ _ _ _ _ _ _ _ _ _
      iexact Hg
    isplitl [Ho]; · iexact Ho
    isplitl [H0]; · iexact H0
    isplitl [H1]; · iexact H1
    isplitl [H2]; · iexact H2
    iexists _; iexact H3
  · have hz : t.val ≠ 0 := fun h => h0 (by rw [h])
    have hc0 : ¬cond1_0 (grid1.coords t) := fun h => h0 ((hcond1_0 t).mp h)
    rw [accAt_next V c t h0]
    rw [PhiS_castSucc V c t, PhiS_pos V c _ _ hz]
    by_cases h1 : t.val % 4 = 3
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      unfold outAt
      rw [accAt_next V c t h0]
      have hrun := (kernelRun1_C c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) (accAt V c (t.val - 1) (Nat.lt_of_le_of_lt (Nat.sub_le _ _) t.isLt))).2.2
      iintro ⟨⟨Hoth, HS0, Hg⟩, Ho, ⟨%d0, H0⟩, ⟨%d1, H1⟩, ⟨%d2, H2⟩, ⟨%d3, H3⟩⟩
      iapply (hrun Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hoth HS0 Hg]
      · isplitl [Hoth]; · iexact Hoth
        isplitl [HS0]
        · unfold owns; iexists _; isplitr
          swap; · iexact HS0
          ipureintro; exact scratch_C c _ _ _ _ _ _ _ _ _ _ _ _ _ _ _ _ _ _
        iexact Hg
      isplitl [Ho]; · iexact Ho
      isplitl [H0]; · iexact H0
      isplitl [H1]; · iexact H1
      isplitl [H2]; · iexact H2
      unfold owns; iexists _; isplitr
      swap; · iexact H3
      ipureintro; exact output_C c _ _ _ _ _ _ _ _ _ _ _ _ _ _ _ _ _ _
    · have hc1 : ¬cond1_1 (grid1.coords t) := fun h => h1 ((hcond1_1 t).mp h)
      rw [Dat.leavesExact_idle (dat1 V c) 3 t (idleAt1_3 t hc1) (noFlush1_3 t hc1)]
      have hrun := (kernelRun1_B c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) (accAt V c (t.val - 1) (Nat.lt_of_le_of_lt (Nat.sub_le _ _) t.isLt))).2
      iintro ⟨⟨Hoth, HS0, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hoth HS0 Hg]
      · isplitl [Hoth]; · iexact Hoth
        isplitl [HS0]
        · unfold owns; iexists _; isplitr
          swap; · iexact HS0
          ipureintro; exact scratch_B c _ _ _ _ _ _ _ _ _ _ _ _ _ _ _ _ _ _
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the region's entry form back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ ht]
  refine BIBase.Entails.trans ?_ (PhiA1_split c).2
  iintro ⟨Hoth, HS0, Hg⟩
  isplitl [Hoth]; · iexact Hoth
  isplitl [HS0]; · iexists _; iexact HS0
  iexact Hg

end Region1

end Cert.KernelIdeal.Hand

end
-- ==== Proof.FrameRun.lean ====
/-
  The whole run. The core's unscoped buffers at each boundary of the program — at launch, after the reshape of the
  weights, after the first kernel region (its output array at what its write-backs leave), after the second stretch of
  host operations, after the second kernel region — as one fold from the launch memory; every pipeline's proof data at
  its region's entry contents; the two regions and the two host stretches as segments; and the run: every weakly fair
  execution terminates with every unscoped buffer at the last boundary's contents. The arguments are written by no
  stretch and no region, so they end as launched.
-/
import proofs.«122168_j27745488732276_2_alg».proof.Proof.FrameA
import proofs.«122168_j27745488732276_2_alg».proof.Proof.FrameR
import proofs.«122168_j27745488732276_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every weakly fair execution terminates, nothing faulting, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Hand

end
-- ==== Proof.Spec.lean ====
/-
  The function both programs compute, index by index, on the extended reals.

  With `x : [8192, 4096]`, quantized weights `wq : [4096, 4096]`, one scale per 128 × 128 block of the weights
  `sc : [32, 32]` and a bias `b : [4096]`, the dequantized weight at `(n, k)` is `wq (n, k) · sc (n / 128, k / 128)` and
  the result at `(t, n)` is `(∑ k < 4096, x (t, k) · wdeq (n, k)) + b n`.
-/
import Idealize.ShloMosaic.PureOps.Ideal
import Idealize.ShloMosaic.Lib.ValueIdx

noncomputable section

open scoped BigOperators

namespace Cert.Spec

open Idealize.ShloMosaic Idealize.ShloMosaic.ValueIdx

/-- The 128-block an index below 4096 lies in. -/
def blk (a : Fin 4096) : Fin 32 := ⟨a.val / 128, by have := a.isLt; omega⟩

@[simp] theorem blk_val (a : Fin 4096) : (blk a).val = a.val / 128 := rfl

/-- The dequantized weight at row `n`, column `k`: the quantized entry times its block's scale. -/
def wdeq (wq : (⟨2, ![4096, 4096]⟩ : Shape).Idx → EReal) (sc : (⟨2, ![32, 32]⟩ : Shape).Idx → EReal) (n k : Fin 4096) : EReal :=
  wq (ix2 n k) * sc (ix2 (blk n) (blk k))

/-- The result: `x` times the transposed dequantized weights, plus the bias along the columns. -/
def G (x : (⟨2, ![8192, 4096]⟩ : Shape).Idx → EReal) (wq : (⟨2, ![4096, 4096]⟩ : Shape).Idx → EReal)
    (sc : (⟨2, ![32, 32]⟩ : Shape).Idx → EReal) (b : (⟨1, ![4096]⟩ : Shape).Idx → EReal) :
    (⟨2, ![8192, 4096]⟩ : Shape).Idx → EReal :=
  fun i => (∑ k : Fin 4096, x (ix2 (i 0) k) * wdeq wq sc (i 1) k) + b (ix1 (i 1))

end Cert.Spec

end
-- ==== Proof.KVal0.lean ====
/-
  What the second kernel region finds in its three input arrays, as functions of the four argument arrays.

  The first region dequantizes the weights. Its grid has 32 points; point `t` stages rows `128 t … 128 t + 127` of
  the weights viewed as `[4096, 32, 128]` (row `n`, column block `a`, offset `l` stand for column `128 a + l`) and
  the whole `[32, 32]` array of scales, loads row `t` of the scales, broadcasts it along the first and last axes and
  multiplies: the stored value at `(p, a, l)` is the staged weight there times the scale at `(t, a)`. The output's
  block at point `t` is rows `128 t … 128 t + 127` again, every point writes its block back, and the 32 blocks cover
  the array; so the output array at `(n, a, l)` is the weight there times the scale at `(n / 128, a)`, whatever the
  buffers held when the region was entered.
  Around the region the host reshapes: the weights `[4096, 4096] → [4096, 32, 128]` before it, the product back to
  `[4096, 4096]` after it, the bias `[4096] → [1, 4096]`; and it converts the activations to a narrower format, which
  on the extended reals is the identity. Row-major reshapes keep the flat position, so the reshaped product at
  `(n, k)` is the weight at `(n, k)` times the scale at `(n / 128, k / 128)`: the dequantized weight.
-/
import proofs.«122168_j27745488732276_2_alg».proof.Proof.FrameRun
import proofs.«122168_j27745488732276_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat)

/-- The body's stored value at `(p, a, l)`: the staged weight there times entry `a` of the loaded row of scales. -/
theorem pay_apply (v1 : Vec Ideal S1x32 .f32) (v6 : Vec Ideal S128x32x128 .f32) (p : Fin 128) (a : Fin 32) (l : Fin 128) :
    (k0_pay1 (F := Ideal) v1 v6 : S128x32x128.Idx → EReal) (ix3 p a l) = v6 (ix3 p a l) * v1 (ix2 (0 : Fin 1) a) := by
  unfold k0_pay1
  show (shapeCast S128x32x128 v6 shapeCasts_S128x32x128_S128x32x128) (ix3 p a l) * (broadcastTo S128x32x128 (shapeCast S1x32x1 (shapeCast S1x32x1 (shapeCast S32 v1 shapeCasts_S1x32_S32) shapeCasts_S32_S1x32x1) shapeCasts_S1x32x1_S1x32x1) broadcasts_S1x32x1_S128x32x128) (ix3 p a l) = _
  rw [shapeCast_self, shapeCast_self]
  congr 1
  refine (broadcastTo_apply _ _ (ix3 p a l) (ix3 (0 : Fin 1) a (0 : Fin 1)) ?_).trans ?_
  · intro b
    match b with
    | ⟨0, _⟩ => rfl
    | ⟨1, _⟩ => rfl
    | ⟨2, _⟩ => rfl
  refine (shapeCast_apply _ _ (ix3 (0 : Fin 1) a (0 : Fin 1)) (ix1 a) ?_).trans ?_
  · rw [Shape.rowMajor_val_one, Shape.rowMajor_val_three]; show a.val = (0 * 32 + a.val) * 1 + 0; omega
  exact shapeCast_apply _ _ (ix1 a) (ix2 (0 : Fin 1) a) (by rw [Shape.rowMajor_val_two, Shape.rowMajor_val_one]; show 0 * 32 + a.val = a.val; omega)

/-- The zero offsets of a whole-block rectangle. -/
theorem hz3 : (![0, 0, 0] : Fin 3 → Nat) = fun _ => 0 := funext fun a => by fin_cases a <;> rfl

/-- The printed index maps and the scales' load offset, decided over the 32 grid points: both weight windows are at row
    block `t`, the scales' window at the origin, and the load reads row `t` from column 0. -/
theorem idx_facts0 : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ k0_off1 (grid0.coords t) (0 : Fin 2) = t.val ∧ k0_off1 (grid0.coords t) (1 : Fin 2) = 0 :=
  (by decide +kernel : ∀ t : Fin grid0.N, _)

/-- At grid coordinates `i` whose load offsets are row `r`, column 0, the body's stored value at `y` is the staged
    weight there times the scale at `(r, y 1)`. -/
theorem point_apply (x0 : Vec Ideal S128x32x128 .f32) (x1 : Vec Ideal S32x32 .f32) (i : grid0.Coords) (r : Fin 32)
    (h0 : k0_off1 i (0 : Fin 2) = r.val) (h1 : k0_off1 i (1 : Fin 2) = 0) (y : S128x32x128.Idx) :
    (k0_pay1 (F := Ideal) (View.ld x1 (r0_1 i)) x0 : S128x32x128.Idx → EReal) y
      = x0 y * x1 (ix2 r (⟨(y 1).val, (y 1).isLt⟩ : Fin 32)) := by
  obtain ⟨p, a, l, rfl⟩ : ∃ (p : Fin 128) (a : Fin 32) (l : Fin 128), y = ix3 p a l := ⟨y 0, y 1, y 2, eq_ix3 y⟩
  rw [pay_apply]
  show x0 (ix3 p a l) * x1 ((r0_1 i).emb (ix2 (0 : Fin 1) a)) = x0 (ix3 p a l) * x1 (ix2 r a)
  refine congrArg (fun z => x0 (ix3 p a l) * x1 z) (funext fun b => Fin.ext ?_)
  rw [Rect.emb_apply]
  match b with
  | ⟨0, _⟩ => show k0_off1 i (0 : Fin 2) + 1 * 0 = r.val; omega
  | ⟨1, _⟩ => show k0_off1 i (1 : Fin 2) + 1 * a.val = a.val; omega

/-- Weights viewed as `[4096, 32, 128]`, each times the scale of its row block and its middle coordinate. -/
def scaledArr (w0 : S4096x32x128.Idx → EReal) (s : S32x32.Idx → EReal) : S4096x32x128.Idx → EReal :=
  fun j => w0 j * s (ix2 (⟨(j 0).val / 128, by have h : (j 0).val < 4096 := (j 0).isLt; show (j 0).val / 128 < 32; omega⟩ : Fin 32) (⟨(j 1).val, (j 1).isLt⟩ : Fin 32))

section
variable (V : (c : Dev nD) → (b : Ref sig .tc) → Buf (Elt Ideal) ((c : Thread nD τ).loc b))

/-- What point `t` writes back is block `t` of the scaled weights, for any contents at the region's entry. -/
theorem flushed0_eq (c : Dev nD) (t : Fin cfg0.N) :
    (dat0 (F := Ideal) V c).flushed 2 t
      = ((cfg0.win 2).blk t).view.read (Elt Ideal) (scaledArr (V c main_v0) (V c main_arg2)) := by
  show (cfg0.win 2).cut (grid0.coords t) ((dat0 V c).after 2 t) = _
  rw [after0_2]
  unfold out0_2
  rw [View.canon_unit_zero hz3]
  rw [View.ld_unit_zero (S := S128x32x128) hz3]
  obtain ⟨e0, e1, e2, e3, e4, e5, e6, e7, e8, e9⟩ := idx_facts0 t
  have htN : t.val < 32 := lt_of_lt_of_eq t.isLt N_0
  funext j
  refine (point_apply (iblk0 V c 0 t) (iblk0 V c 1 t) (grid0.coords t) ⟨t.val, htN⟩ e8 e9 _).trans ?_
  rw [View.read_apply]
  show @HMul.hMul EReal EReal EReal instHMul
        ((V c main_v0 : S4096x32x128.Idx → EReal) (((cfg0.win 0).blk t).view.emb ((cfg0.win 2).xinj (grid0.coords t) j)))
        ((V c main_arg2 : S32x32.Idx → EReal) (((cfg0.win 1).blk t).view.emb (ix2 (⟨t.val, htN⟩ : Fin 32) (⟨(j 1).val, (j 1).isLt⟩ : Fin 32))))
      = scaledArr (V c main_v0) (V c main_arg2) (((cfg0.win 2).blk t).view.emb j)
  unfold scaledArr
  have hj0 : (j 0).val < 128 := (j 0).isLt
  refine congrArg₂ (@HMul.hMul EReal EReal EReal instHMul) (congrArg (V c main_v0 : S4096x32x128.Idx → EReal) (funext fun a => Fin.ext ?_))
    (congrArg (V c main_arg2 : S32x32.Idx → EReal) (funext fun a => Fin.ext ?_))
  · match a with
    | ⟨0, _⟩ => show win0_0.index t (0 : Fin 3) * 128 + 1 * (j 0).val = win0_2.index t (0 : Fin 3) * 128 + 1 * (j 0).val; omega
    | ⟨1, _⟩ => show win0_0.index t (1 : Fin 3) * 32 + 1 * (j 1).val = win0_2.index t (1 : Fin 3) * 32 + 1 * (j 1).val; omega
    | ⟨2, _⟩ => show win0_0.index t (2 : Fin 3) * 128 + 1 * (j 2).val = win0_2.index t (2 : Fin 3) * 128 + 1 * (j 2).val; omega
  · match a with
    | ⟨0, _⟩ => show win0_1.index t (0 : Fin 2) * 32 + 1 * t.val = (win0_2.index t (0 : Fin 3) * 128 + 1 * (j 0).val) / 128; omega
    | ⟨1, _⟩ => show win0_1.index t (1 : Fin 2) * 32 + 1 * (j 1).val = win0_2.index t (1 : Fin 3) * 32 + 1 * (j 1).val; omega

/-- An index of the output array is in point `t`'s block iff each coordinate is in the block's range on its axis. -/
theorem mem_blk0 (t : Fin cfg0.N) (i : S4096x32x128.Idx) :
    i ∈ ((cfg0.win 2).blk t).view.set ↔ ∀ a : Fin 3, win0_2.index t a * S128x32x128.size a ≤ (i a).val ∧ (i a).val < win0_2.index t a * S128x32x128.size a + S128x32x128.size a := by
  show i ∈ ((View.whole main_v1).slice (win0_2.rect t)).set ↔ _
  rw [View.set_slice_whole, Rect.mem_set_unit]
  exact Iff.rfl

/-- Every index of the output array lies in the block of the point its row block names, and every point writes back. -/
theorem cover0 (i : S4096x32x128.Idx) : ∃ t : Fin cfg0.N, (cfg0.win 2).flush t = true ∧ i ∈ ((cfg0.win 2).blk t).view.set := by
  have hi0 : (i 0).val < 4096 := (i 0).isLt
  have hi1 : (i 1).val < 32 := (i 1).isLt
  have hi2 : (i 2).val < 128 := (i 2).isLt
  have hN : cfg0.N = 32 := N_0
  refine ⟨⟨(i 0).val / 128, by rw [hN]; omega⟩, flush0_2 _, ?_⟩
  rw [mem_blk0]
  obtain ⟨-, -, -, -, -, e5, e6, e7, -, -⟩ := idx_facts0 ⟨(i 0).val / 128, by rw [hN]; omega⟩
  intro a
  match a with
  | ⟨0, _⟩ => show win0_2.index _ (0 : Fin 3) * 128 ≤ (i 0).val ∧ (i 0).val < win0_2.index _ (0 : Fin 3) * 128 + 128; rw [e5]; show (i 0).val / 128 * 128 ≤ (i 0).val ∧ (i 0).val < (i 0).val / 128 * 128 + 128; omega
  | ⟨1, _⟩ => show win0_2.index _ (1 : Fin 3) * 32 ≤ (i 1).val ∧ (i 1).val < win0_2.index _ (1 : Fin 3) * 32 + 32; rw [e6]; omega
  | ⟨2, _⟩ => show win0_2.index _ (2 : Fin 3) * 128 ≤ (i 2).val ∧ (i 2).val < win0_2.index _ (2 : Fin 3) * 128 + 128; rw [e7]; omega

/-- The first region's output array after the region: the weights as the region finds them, each times its scale. -/
theorem region0_out (c : Dev nD) :
    (dat0 (F := Ideal) V c).arrAt 2 cfg0.N = scaledArr (V c main_v0) (V c main_arg2) :=
  (dat0 (F := Ideal) V c).arrAt_eq_of_cover 2 (scaledArr (V c main_v0) (V c main_arg2)) (fun t _ => flushed0_eq V c t) cover0
end

section
variable (m : (ℓ : Loc nD τ sig) → Buf (Elt Ideal) ℓ) (ρ : Dev nD → PrngReg)
open Cert.Spec (blk)

/-- Entering the first region, `main_v0` holds the weights reshaped to `[4096, 32, 128]`. -/
theorem V1_v0 (c : Dev nD) :
    V1 (F := Ideal) m ρ c main_v0 = shapeCast S4096x32x128 (m ((c : Thread nD τ).loc main_arg1)) shapeCasts_S4096x4096_S4096x32x128 := by
  show StableHlo.after hostOps0 (W0 m ρ c) (Proc.devRef .tc main_v0) = _
  after_results
  rfl

/-- Entering the first region, the scales are as launched. -/
theorem V1_arg2 (c : Dev nD) : V1 (F := Ideal) m ρ c main_arg2 = m ((c : Thread nD τ).loc main_arg2) :=
  (StableHlo.after_of_writes_sub hostOps0 _ hostOps0_writes (by decide)).trans rfl

/-- After the first region the activations are as launched. -/
theorem W2_arg0 (c : Dev nD) : W2 (F := Ideal) m ρ c (Proc.devRef .tc main_arg0) = m ((c : Thread nD τ).loc main_arg0) :=
  (W2_of_ne m ρ c main_arg0 (by decide)).trans ((StableHlo.after_of_writes_sub hostOps0 _ hostOps0_writes (by decide)).trans rfl)
/-- After the first region the bias is as launched. -/
theorem W2_arg3 (c : Dev nD) : W2 (F := Ideal) m ρ c (Proc.devRef .tc main_arg3) = m ((c : Thread nD τ).loc main_arg3) :=
  (W2_of_ne m ρ c main_arg3 (by decide)).trans ((StableHlo.after_of_writes_sub hostOps0 _ hostOps0_writes (by decide)).trans rfl)

/-- The second region finds the activations themselves: the host's change of format is the identity here. -/
theorem V3_x (c : Dev nD) :
    (V3 (F := Ideal) m ρ c main_v3 : S8192x4096.Idx → EReal) = m ((c : Thread nD τ).loc main_arg0) := by
  show StableHlo.after hostOps1 (W2 m ρ c) (Proc.devRef .tc main_v3) = _
  after_results
  rw [W2_arg0]
  rfl

/-- The second region finds the bias as one row: entry `(0, n)` is the bias at `n`. -/
theorem V3_b (c : Dev nD) :
    (V3 (F := Ideal) m ρ c main_v4 : S1x4096.Idx → EReal) = fun i => m ((c : Thread nD τ).loc main_arg3) (ix1 (⟨(i 1).val, (i 1).isLt⟩ : Fin 4096)) := by
  show StableHlo.after hostOps1 (W2 m ρ c) (Proc.devRef .tc main_v4) = _
  after_results
  rw [W2_arg3]
  funext i
  obtain ⟨z, n, rfl⟩ : ∃ (z : Fin 1) (n : Fin 4096), i = ix2 z n := ⟨i 0, i 1, eq_ix2 i⟩
  refine shapeCast_apply _ _ (ix2 z n) (ix1 n) ?_
  rw [Shape.rowMajor_val_one, Shape.rowMajor_val_two]
  have hz := z.isLt
  show n.val = z.val * 4096 + n.val; omega

/-- The same, with the column coordinate used as it stands. -/
theorem V3_b' (c : Dev nD) :
    (V3 (F := Ideal) m ρ c main_v4 : S1x4096.Idx → EReal) = fun i => m ((c : Thread nD τ).loc main_arg3) (ix1 (i 1)) :=
  V3_b m ρ c

/-- The second region finds the dequantized weights: at `(n, k)` the quantized weight times the scale of its 128 × 128
    block. -/
theorem V3_w (c : Dev nD) :
    (V3 (F := Ideal) m ρ c main_v2 : S4096x4096.Idx → EReal)
      = fun i => Cert.Spec.wdeq (m ((c : Thread nD τ).loc main_arg1)) (m ((c : Thread nD τ).loc main_arg2)) (i 0) (i 1) := by
  show StableHlo.after hostOps1 (W2 m ρ c) (Proc.devRef .tc main_v2) = _
  after_results
  rw [show W2 m ρ c (Proc.devRef .tc main_v1) = (dat0 (V1 m ρ) c).arrAt 2 cfg0.N from W2_arr m ρ c 2, region0_out,
    V1_v0, V1_arg2]
  funext i
  obtain ⟨n, k, rfl⟩ : ∃ (n k : Fin 4096), i = ix2 n k := ⟨i 0, i 1, eq_ix2 i⟩
  have hn := n.isLt; have hk := k.isLt
  refine (shapeCast_apply _ _ (ix2 n k) (ix3 n (blk k) (⟨k.val % 128, Nat.mod_lt _ (by decide)⟩ : Fin 128)) ?_).trans ?_
  · rw [Shape.rowMajor_val_three, Shape.rowMajor_val_two]
    show (n.val * 32 + k.val / 128) * 128 + k.val % 128 = n.val * 4096 + k.val; omega
  unfold scaledArr Cert.Spec.wdeq
  refine congrArg₂ (@HMul.hMul EReal EReal EReal instHMul) ?_ rfl
  refine shapeCast_apply _ _ (ix3 n (blk k) (⟨k.val % 128, Nat.mod_lt _ (by decide)⟩ : Fin 128)) (ix2 n k) ?_
  rw [Shape.rowMajor_val_two, Shape.rowMajor_val_three]
  show n.val * 4096 + k.val = (n.val * 32 + k.val / 128) * 128 + k.val % 128; omega
end

end Cert.KernelIdeal.Hand

end
-- ==== Proof.KPay.lean ====
/-
  The second region's three payloads read at an index, on the extended reals: the zero fill is 0; the accumulation adds
  to the accumulator, at `(p, q)`, the sum over `r < 1024` of `lhs (p, r) · rhs (q, r)` (both operands contracted along
  their second axis); the output is the accumulator plus the bias row's entry of the column.
-/
import proofs.«122168_j27745488732276_2_alg».proof.Proof.FrameR
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

local notation "DD" => dot_S2048x1024_S1024x1024_S2048x1024_1_1_0_0_n_n

theorem pay1_apply (j : S2048x1024.Idx) : k1_pay1 (F := Ideal) j = 0 := by
  unfold k1_pay1
  rw [shapeCast_self]
  show Ideal.ofBits .f32 0x00000000#32 = 0
  exact Ideal.ofBits_zero_f32

theorem lhs_0 (i : S2048x1024.Idx) (q : (DD).contr.Idx) : ((DD).lhsIdx i q 0).val = (i 0).val := by
  unfold DotDims.lhsIdx
  rw [dif_neg (show ¬(0 : Fin S2048x1024.rank) ∈ (DD).lhsBatch by decide), dif_pos (show (0 : Fin S2048x1024.rank) ∈ (DD).lhsNonContracting by decide)]
  rfl
theorem lhs_1 (i : S2048x1024.Idx) (q : (DD).contr.Idx) : ((DD).lhsIdx i q 1).val = (q ⟨0, by decide⟩).val :=
  (DD).lhsIdx_val_of_single rfl i q
theorem rhs_0 (i : S2048x1024.Idx) (q : (DD).contr.Idx) : ((DD).rhsIdx i q 0).val = (i 1).val := by
  unfold DotDims.rhsIdx
  rw [dif_neg (show ¬(0 : Fin S1024x1024.rank) ∈ (DD).rhsBatch by decide), dif_pos (show (0 : Fin S1024x1024.rank) ∈ (DD).rhsNonContracting by decide)]
  rfl
theorem rhs_1 (i : S2048x1024.Idx) (q : (DD).contr.Idx) : ((DD).rhsIdx i q 1).val = (q ⟨0, by decide⟩).val :=
  (DD).rhsIdx_val_of_single rfl i q

theorem pay2_apply (v3 : Vec Ideal S2048x1024 .bf16) (v5 : Vec Ideal S1024x1024 .bf16) (v7 : Vec Ideal S2048x1024 .f32) (p : Fin 2048) (q : Fin 1024) :
    k1_pay2 (F := Ideal) v3 v5 v7 (ix2 p q) = v7 (ix2 p q) + ∑ r : Fin 1024, v3 (ix2 p r) * v5 (ix2 q r) := by
  unfold k1_pay2
  simp only [shapeCast_self]
  show (v7 (ix2 p q) : EReal) + FloatOps.matmul (F := Ideal) (DD) none v3 v5 (constant (F := Ideal) S2048x1024 .f32 0x00000000#32) (ix2 p q) = _
  rw [Ideal.matmul_constant_zero_apply, ← Equiv.sum_comp (ValueIdx.contrEquiv1 (DD) 1024 rfl rfl).symm]
  refine congrArg (v7 (ix2 p q) + ·) (Finset.sum_congr rfl fun k _ => ?_)
  have hk := ValueIdx.contrEquiv1_symm_val (DD) 1024 rfl rfl k
  have el : (DD).lhsIdx (ix2 p q) ((ValueIdx.contrEquiv1 (DD) 1024 rfl rfl).symm k) = ix2 p k := funext fun a => Fin.ext (by
    match a with
    | ⟨0, _⟩ => exact lhs_0 _ _
    | ⟨1, _⟩ => exact (lhs_1 _ _).trans hk)
  have er : (DD).rhsIdx (ix2 p q) ((ValueIdx.contrEquiv1 (DD) 1024 rfl rfl).symm k) = ix2 q k := funext fun a => Fin.ext (by
    match a with
    | ⟨0, _⟩ => exact rhs_0 _ _
    | ⟨1, _⟩ => exact (rhs_1 _ _).trans hk)
  rw [el, er]

theorem pay3_apply (v16 : Vec Ideal S1x1024 .f32) (v20 : Vec Ideal S2048x1024 .f32) (p : Fin 2048) (q : Fin 1024) :
    k1_pay3 (F := Ideal) v16 v20 (ix2 p q) = v20 (ix2 p q) + v16 (ix2 (0 : Fin 1) q) := by
  unfold k1_pay3
  simp only [shapeCast_self]
  show (v20 (ix2 p q) : EReal) + broadcastTo S2048x1024 v16 broadcasts_S1x1024_S2048x1024 (ix2 p q) = _
  rw [broadcastTo_1b_ab_apply]

end Cert.KernelIdeal.Hand

end
-- ==== Proof.KSum.lean ====
/-
  A sum over 4096 consecutive indices as the running sum of its four blocks of 1024, in any commutative additive
  monoid (the extended reals' addition is commutative and associative, so no finiteness is needed): starting from zero
  and adding the blocks one after the other gives the whole sum.
-/
import Mathlib.Algebra.BigOperators.Fin
import Mathlib.Algebra.BigOperators.Intervals

open scoped BigOperators

namespace Cert.Spec

/-- Block `s` (of four) of a family indexed below 4096, summed. -/
def blockSum {M : Type} [AddCommMonoid M] (f : Fin 4096 → M) (s : ℕ) (hs : s < 4) : M :=
  ∑ r : Fin 1024, f ⟨1024 * s + r.val, by have := r.isLt; omega⟩

theorem sum_four_blocks {M : Type} [AddCommMonoid M] (f : Fin 4096 → M) :
    (((0 + blockSum f 0 (by decide)) + blockSum f 1 (by decide)) + blockSum f 2 (by decide)) + blockSum f 3 (by decide)
      = ∑ κ : Fin 4096, f κ := by
  classical
  let g : ℕ → M := fun n => if h : n < 4096 then f ⟨n, h⟩ else 0
  have hb : ∀ (s : ℕ) (hs : s < 4), blockSum f s hs = ∑ r ∈ Finset.range 1024, g (1024 * s + r) := by
    intro s hs
    rw [← Fin.sum_univ_eq_sum_range (fun r => g (1024 * s + r)) 1024]
    refine Finset.sum_congr rfl fun r _ => ?_
    show f _ = g _
    simp only [g]
    rw [dif_pos (by have := r.isLt; omega)]
  have hall : (∑ κ : Fin 4096, f κ) = ∑ κ ∈ Finset.range 4096, g κ := by
    rw [← Fin.sum_univ_eq_sum_range g 4096]
    refine Finset.sum_congr rfl fun κ _ => ?_
    simp only [g]
    rw [dif_pos κ.isLt]
  rw [hall, show (4096 : ℕ) = 1024 + 1024 + 1024 + 1024 from rfl, Finset.sum_range_add, Finset.sum_range_add,
    Finset.sum_range_add, hb 0, hb 1, hb 2, hb 3, zero_add]
  refine congrArg₂ (· + ·) (congrArg₂ (· + ·) (congrArg₂ (· + ·) ?_ ?_) ?_) ?_ <;>
    exact Finset.sum_congr rfl fun r _ => congrArg g (by omega)

end Cert.Spec
-- ==== Proof.KVal1.lean ====
/-
  What the second kernel region leaves in its output array, on the extended reals, for any contents `V` of the core's
  buffers when the region is entered. With `X = V main_v3 : [8192, 4096]`, `W = V main_v2 : [4096, 4096]` and
  `B = V main_v4 : [1, 4096]` the array ends at `(t, n) ↦ (∑ κ < 4096, X (t, κ) · W (n, κ)) + B (0, n)`.

  Grid point `t` has coordinates `(t / 16, t / 4 mod 4, t mod 4)`: it stages rows `2048 (t / 16) …` and columns
  `1024 (t mod 4) …` of `X`, rows `1024 (t / 4 mod 4) …` and the same columns of `W`, columns `1024 (t / 4 mod 4) …` of `B`,
  and its output block is rows `2048 (t / 16) …`, columns `1024 (t / 4 mod 4) …`. The output is written back where
  `t mod 4 = 3`; there the accumulator holds the four block products of the points `t - 3 … t` added up from zero, which
  is the whole contraction; the sixteen written-back blocks tile the array.
-/
import proofs.«122168_j27745488732276_2_alg».proof.Proof.KPay
import proofs.«122168_j27745488732276_2_alg».proof.Proof.KSum

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section
variable (V : (c : Dev nD) → (b : Ref sig .tc) → Buf (Elt Ideal) ((c : Thread nD τ).loc b))

/-- The result array as one function of the three arrays the region reads. -/
def Gk (X : S8192x4096.Idx → EReal) (W : S4096x4096.Idx → EReal) (B : S1x4096.Idx → EReal) : S8192x4096.Idx → EReal :=
  fun i => (∑ κ : Fin 4096, X (ix2 (i 0) κ) * W (ix2 (i 1) κ)) + B (ix2 (0 : Fin 1) (i 1))

/-- The three arrays the region reads and the three staged blocks at a point, as families of extended reals. -/
abbrev Xa (c : Dev nD) : S8192x4096.Idx → EReal := V c main_v3
abbrev Wa (c : Dev nD) : S4096x4096.Idx → EReal := V c main_v2
abbrev Ba (c : Dev nD) : S1x4096.Idx → EReal := V c main_v4
abbrev xb (c : Dev nD) (t : Fin cfg1.N) : S2048x1024.Idx → EReal := iblk1 V c 0 t
abbrev wb (c : Dev nD) (t : Fin cfg1.N) : S1024x1024.Idx → EReal := iblk1 V c 1 t
abbrev bb (c : Dev nD) (t : Fin cfg1.N) : S1x1024.Idx → EReal := iblk1 V c 2 t

/-- The printed index maps over the grid, decided: each window's block index from the point's number. -/
theorem idx_facts1 : ∀ t : Fin cfg1.N, win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

theorem N1 : cfg1.N = 64 := N_1

/-- The staged block of `X` at point `t`, entry `(p, r)`. -/
theorem blk_x (c : Dev nD) (t : Fin cfg1.N) (p : Fin 2048) (r : Fin 1024) (row : Fin 8192) (col : Fin 4096)
    (hrow : row.val = t.val / 16 * 2048 + p.val) (hcol : col.val = t.val % 4 * 1024 + r.val) :
    xb V c t (ix2 p r) = Xa V c (ix2 row col) := by
  obtain ⟨e0, e1, -⟩ := idx_facts1 t
  show V c main_v3 (((cfg1.win 0).blk t).view.emb (ix2 p r)) = V c main_v3 (ix2 row col)
  refine congrArg _ (funext fun a => Fin.ext ?_)
  match a with
  | ⟨0, _⟩ => show win1_0.index t (0 : Fin 2) * 2048 + 1 * p.val = row.val; omega
  | ⟨1, _⟩ => show win1_0.index t (1 : Fin 2) * 1024 + 1 * r.val = col.val; omega

/-- The staged block of `W` at point `t`, entry `(q, r)`. -/
theorem blk_w (c : Dev nD) (t : Fin cfg1.N) (q : Fin 1024) (r : Fin 1024) (row : Fin 4096) (col : Fin 4096)
    (hrow : row.val = t.val / 4 % 4 * 1024 + q.val) (hcol : col.val = t.val % 4 * 1024 + r.val) :
    wb V c t (ix2 q r) = Wa V c (ix2 row col) := by
  obtain ⟨-, -, e0, e1, -⟩ := idx_facts1 t
  show V c main_v2 (((cfg1.win 1).blk t).view.emb (ix2 q r)) = V c main_v2 (ix2 row col)
  refine congrArg _ (funext fun a => Fin.ext ?_)
  match a with
  | ⟨0, _⟩ => show win1_1.index t (0 : Fin 2) * 1024 + 1 * q.val = row.val; omega
  | ⟨1, _⟩ => show win1_1.index t (1 : Fin 2) * 1024 + 1 * r.val = col.val; omega

/-- The staged block of `B` at point `t`, entry `(0, q)`. -/
theorem blk_b (c : Dev nD) (t : Fin cfg1.N) (q : Fin 1024) (col : Fin 4096)
    (hcol : col.val = t.val / 4 % 4 * 1024 + q.val) :
    bb V c t (ix2 (0 : Fin 1) q) = Ba V c (ix2 (0 : Fin 1) col) := by
  obtain ⟨-, -, -, -, e0, e1, -⟩ := idx_facts1 t
  show V c main_v4 (((cfg1.win 2).blk t).view.emb (ix2 (0 : Fin 1) q)) = V c main_v4 (ix2 (0 : Fin 1) col)
  refine congrArg _ (funext fun a => Fin.ext ?_)
  match a with
  | ⟨0, _⟩ => show win1_2.index t (0 : Fin 2) * 1 + 1 * 0 = 0; omega
  | ⟨1, _⟩ => show win1_2.index t (1 : Fin 2) * 1024 + 1 * q.val = col.val; omega

/-- The block product the body adds at point `t` is block `t mod 4` of the contraction, for the output entry's row and column. -/
theorem block_term (c : Dev nD) (t : Fin cfg1.N) (p : Fin 2048) (q : Fin 1024) (row : Fin 8192) (col : Fin 4096) (s : ℕ) (hs : s < 4)
    (hrow : row.val = t.val / 16 * 2048 + p.val) (hcol : col.val = t.val / 4 % 4 * 1024 + q.val) (hst : t.val % 4 = s) :
    (∑ r : Fin 1024, xb V c t (ix2 p r) * wb V c t (ix2 q r))
      = Cert.Spec.blockSum (fun κ : Fin 4096 => Xa V c (ix2 row κ) * Wa V c (ix2 col κ)) s hs := by
  unfold Cert.Spec.blockSum
  refine Finset.sum_congr rfl fun r _ => ?_
  rw [blk_x V c t p r row ⟨1024 * s + r.val, by have := r.isLt; omega⟩ hrow (by show 1024 * s + r.val = _; omega),
    blk_w V c t q r col ⟨1024 * s + r.val, by have := r.isLt; omega⟩ hcol (by show 1024 * s + r.val = _; omega)]

theorem accAt_first' (c : Dev nD) (n : ℕ) (hn : n < cfg1.N) (h0 : n % 4 = 0) :
    accAt V c n hn = k1_pay2 (iblk1 V c 0 ⟨n, hn⟩) (iblk1 V c 1 ⟨n, hn⟩) (k1_pay1 (F := Ideal)) :=
  accAt_first V c ⟨n, hn⟩ h0
theorem accAt_next' (c : Dev nD) (n : ℕ) (hn : n < cfg1.N) (h0 : ¬n % 4 = 0) :
    accAt V c n hn = k1_pay2 (iblk1 V c 0 ⟨n, hn⟩) (iblk1 V c 1 ⟨n, hn⟩) (accAt V c (n - 1) (Nat.lt_of_le_of_lt (Nat.sub_le _ _) hn)) :=
  accAt_next V c ⟨n, hn⟩ h0

/-- Where the last grid coordinate is 3 the accumulator holds the whole contraction for its block's entries. -/
theorem acc_full (c : Dev nD) (t : Fin cfg1.N) (h3 : t.val % 4 = 3) (p : Fin 2048) (q : Fin 1024) (row : Fin 8192) (col : Fin 4096)
    (hrow : row.val = t.val / 16 * 2048 + p.val) (hcol : col.val = t.val / 4 % 4 * 1024 + q.val) :
    (accAt V c t.val t.isLt (ix2 p q) : EReal) = ∑ κ : Fin 4096, Xa V c (ix2 row κ) * Wa V c (ix2 col κ) := by
  have hN : t.val < 64 := lt_of_lt_of_eq t.isLt N1
  have hlt1 : t.val - 1 < cfg1.N := lt_of_le_of_lt (Nat.sub_le _ _) t.isLt
  have hlt2 : t.val - 1 - 1 < cfg1.N := lt_of_le_of_lt (Nat.sub_le _ _) hlt1
  have hlt3 : t.val - 1 - 1 - 1 < cfg1.N := lt_of_le_of_lt (Nat.sub_le _ _) hlt2
  rw [accAt_next' V c t.val t.isLt (by omega), pay2_apply,
    accAt_next' V c (t.val - 1) hlt1 (by omega), pay2_apply,
    accAt_next' V c (t.val - 1 - 1) hlt2 (by omega), pay2_apply,
    accAt_first' V c (t.val - 1 - 1 - 1) hlt3 (by omega), pay2_apply, pay1_apply]
  refine (congrArg₂ (· + ·) (congrArg₂ (· + ·) (congrArg₂ (· + ·) (congrArg (0 + ·)
    (block_term V c ⟨t.val - 1 - 1 - 1, hlt3⟩ p q row col 0 (by decide) (by show row.val = (t.val - 1 - 1 - 1) / 16 * 2048 + p.val; omega) (by show col.val = (t.val - 1 - 1 - 1) / 4 % 4 * 1024 + q.val; omega) (by show (t.val - 1 - 1 - 1) % 4 = 0; omega)))
    (block_term V c ⟨t.val - 1 - 1, hlt2⟩ p q row col 1 (by decide) (by show row.val = (t.val - 1 - 1) / 16 * 2048 + p.val; omega) (by show col.val = (t.val - 1 - 1) / 4 % 4 * 1024 + q.val; omega) (by show (t.val - 1 - 1) % 4 = 1; omega)))
    (block_term V c ⟨t.val - 1, hlt1⟩ p q row col 2 (by decide) (by show row.val = (t.val - 1) / 16 * 2048 + p.val; omega) (by show col.val = (t.val - 1) / 4 % 4 * 1024 + q.val; omega) (by show (t.val - 1) % 4 = 2; omega)))
    (block_term V c ⟨t.val, t.isLt⟩ p q row col 3 (by decide) hrow hcol h3)).trans (Cert.Spec.sum_four_blocks _)

/-- WHAT A WRITING-BACK POINT WRITES BACK is its block of `Gk` of the three arrays as the region finds them. -/
theorem flushed3_eq (c : Dev nD) (t : Fin cfg1.N) (h3 : t.val % 4 = 3) :
    (dat1 V c).flushed 3 t = ((cfg1.win 3).blk t).view.read (Elt Ideal) (Gk (Xa V c) (Wa V c) (Ba V c)) := by
  have hN : t.val < 64 := lt_of_lt_of_eq t.isLt N1
  obtain ⟨-, -, -, -, -, -, e0, e1⟩ := idx_facts1 t
  show (cfg1.win 3).cut (grid1.coords t) ((dat1 V c).after 3 t) = _
  rw [after1_3]
  unfold outAt
  funext j
  obtain ⟨p, q, rfl⟩ : ∃ (p : Fin 2048) (q : Fin 1024), j = ix2 p q := ⟨j 0, j 1, eq_ix2 j⟩
  have hemb : ((cfg1.win 3).blk t).view.emb (ix2 p q)
      = (ix2 (⟨t.val / 16 * 2048 + p.val, by have := p.isLt; omega⟩ : Fin 8192) (⟨t.val / 4 % 4 * 1024 + q.val, by have := q.isLt; omega⟩ : Fin 4096) : S8192x4096.Idx) := by
    funext a; apply Fin.ext
    match a with
    | ⟨0, _⟩ => show win1_3.index t (0 : Fin 2) * 2048 + 1 * p.val = t.val / 16 * 2048 + p.val; omega
    | ⟨1, _⟩ => show win1_3.index t (1 : Fin 2) * 1024 + 1 * q.val = t.val / 4 % 4 * 1024 + q.val; omega
  show k1_pay3 (F := Ideal) (iblk1 V c 2 t) (accAt V c t.val t.isLt) (ix2 p q) = Gk (Xa V c) (Wa V c) (Ba V c) (((cfg1.win 3).blk t).view.emb (ix2 p q))
  rw [hemb, pay3_apply, acc_full V c t h3 p q ⟨t.val / 16 * 2048 + p.val, by have := p.isLt; omega⟩ ⟨t.val / 4 % 4 * 1024 + q.val, by have := q.isLt; omega⟩ rfl rfl]
  exact congrArg (_ + ·) (blk_b V c t q ⟨t.val / 4 % 4 * 1024 + q.val, by have := q.isLt; omega⟩ rfl)

/-- An index of the array is in point `t`'s block iff each coordinate is in the block's range on its axis. -/
theorem mem_blk3 (t : Fin cfg1.N) (i : S8192x4096.Idx) :
    i ∈ ((cfg1.win 3).blk t).view.set ↔ ∀ a : Fin 2, win1_3.index t a * S2048x1024.size a ≤ (i a).val ∧ (i a).val < win1_3.index t a * S2048x1024.size a + S2048x1024.size a := by
  show i ∈ ((View.whole main_v5).slice (win1_3.rect t)).set ↔ _
  rw [View.set_slice_whole, Rect.mem_set_unit]
  exact Iff.rfl

/-- Every index of the array is in the block of some point that writes back. -/
theorem cover3 (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  let t : Fin cfg1.N := ⟨(i 0).val / 2048 * 16 + (i 1).val / 1024 * 4 + 3, by rw [N1]; omega⟩
  obtain ⟨-, -, -, -, -, -, e0, e1⟩ := idx_facts1 t
  have hv : t.val = (i 0).val / 2048 * 16 + (i 1).val / 1024 * 4 + 3 := rfl
  refine ⟨t, (flush1_3 t).mpr (by omega), ?_⟩
  rw [mem_blk3]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 1024 ≤ (i 1).val ∧ (i 1).val < win1_3.index t (1 : Fin 2) * 1024 + 1024; omega

/-- THE OUTPUT ARRAY after the region. -/
theorem final3 (c : Dev nD) : (dat1 V c).arrAt 3 cfg1.N = Gk (Xa V c) (Wa V c) (Ba V c) :=
  (dat1 V c).arrAt_eq_of_cover 3 (Gk (Xa V c) (Wa V c) (Ba V c))
    (fun t hf => flushed3_eq V c t ((flush1_3 t).mp hf)) (cover3)

end

end Cert.KernelIdeal.Hand

end
-- ==== Proof.KFinal.lean ====
/-
  The kernel's result as a function of its arguments, on the extended reals. The second region finds `x` itself in its
  first array (the host's change of format is the identity), the dequantized weights `wq (n, k) · sc (n / 128, k / 128)`
  in its second (the first region's output, reshaped) and the bias as a row in its third; its output array ends at the
  contraction of the first two along their second axes plus the bias: `Cert.Spec.G` of the four arguments.
-/
import proofs.«122168_j27745488732276_2_alg».proof.Proof.KVal0
import proofs.«122168_j27745488732276_2_alg».proof.Proof.KVal1
import proofs.«122168_j27745488732276_2_alg».proof.Proof.FrameRun
import proofs.«122168_j27745488732276_2_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem kernel_value (c : Dev nD) :
    W4 (F := Ideal) m ρ c (Proc.devRef .tc main_v5)
      = Cert.Spec.G (m ((c : Thread nD τ).loc main_arg0)) (m ((c : Thread nD τ).loc main_arg1))
          (m ((c : Thread nD τ).loc main_arg2)) (m ((c : Thread nD τ).loc main_arg3)) := by
  refine (W4_arr m ρ c 3).trans ?_
  rw [final3 (V3 m ρ) c]
  unfold Xa Wa Ba
  rw [V3_x m ρ c, V3_w m ρ c, V3_b' m ρ c]
  rfl

end Cert.KernelIdeal.Hand

end
-- ==== Proof.RefAlgebra.lean ====
/-
  One block of 128 activations on the extended reals, with no program in sight.

  The reference quantizes a block `r` of real activations by the scale `s = max (M / 448) c`, where `M` is the largest
  absolute value of the block and `c` a positive floor, clips `r k / s` to `[-448, 448]` and multiplies by `s` again.
  Since `|r k| ≤ M ≤ 448 · s` and `s > 0`, the quotient already lies in `[-448, 448]`: the clip is the identity and the product
  gives `r k` back. Here: the four float words the reference spells as the extended reals they denote, the maximum of a
  nonempty finite family of reals folded from `-∞` is a real bounding the family, and the round trip itself.
-/
import Idealize.ShloMosaic.PureOps.Ideal

noncomputable section

namespace Cert.RefAlgebra

open Idealize.ShloMosaic

/-- The word of `448.0` denotes the real 448. -/
theorem ofBits_448 : Ideal.ofBits .f32 0x43E00000#32 = ((448 : ℝ) : EReal) := by
  simp [Ideal.ofBits, Ideal.ieee, -EReal.coe_mul]; norm_num

/-- The word of `-448.0` denotes the real -448. -/
theorem ofBits_neg448 : Ideal.ofBits .f32 0xC3E00000#32 = ((-448 : ℝ) : EReal) := by
  simp [Ideal.ofBits, Ideal.ieee, -EReal.coe_mul]; norm_num

/-- The word of the negative infinity denotes `⊥`. -/
theorem ofBits_neg_inf : Ideal.ofBits .f32 0xFF800000#32 = (⊥ : EReal) := by
  simp [Ideal.ofBits, Ideal.ieee]

/-- The word of the scale's floor (the f32 nearest `1e-12`) denotes a positive real. -/
theorem ofBits_floor : ∃ c : ℝ, 0 < c ∧ Ideal.ofBits .f32 0x2B8CBCCC#32 = (c : EReal) := by
  refine ⟨9223372 * (2 : ℝ) ^ (-63 : ℤ), by positivity, ?_⟩
  simp [Ideal.ofBits, Ideal.ieee, -EReal.coe_mul]

/-- The inclusion of the reals is monotone, so it commutes with `max` … -/
theorem coe_max (a b : ℝ) : ((max a b : ℝ) : EReal) = max (a : EReal) (b : EReal) :=
  EReal.coe_strictMono.monotone.map_max

/-- … and with `min`. -/
theorem coe_min (a b : ℝ) : ((min a b : ℝ) : EReal) = min (a : EReal) (b : EReal) :=
  EReal.coe_strictMono.monotone.map_min

/-- An absolute value as the instance spells it, `max x (-x)`, of a real is the real's absolute value. -/
theorem max_neg_coe (r : ℝ) : max ((r : ℝ) : EReal) (-((r : ℝ) : EReal)) = ((|r| : ℝ) : EReal) := by
  rw [← EReal.coe_neg, ← coe_max, abs_eq_max_neg]

/-- The maximum of a nonempty finite family of reals, folded from `-∞` on the extended reals, is a real, and it bounds
    the family. -/
theorem fold_max_real {ι : Type} [Fintype ι] (k0 : ι) (g : ι → ℝ) :
    ∃ M : ℝ, (Finset.univ.fold max (⊥ : EReal) fun k => ((g k : ℝ) : EReal)) = (M : EReal) ∧ ∀ k, g k ≤ M := by
  have hle : ∀ k, ((g k : ℝ) : EReal) ≤ Finset.univ.fold max (⊥ : EReal) fun k => ((g k : ℝ) : EReal) :=
    fun k => (Finset.le_fold_max _).2 (Or.inr ⟨k, Finset.mem_univ _, le_rfl⟩)
  have htop : (Finset.univ.fold max (⊥ : EReal) fun k => ((g k : ℝ) : EReal)) < ⊤ :=
    (Finset.fold_max_lt _).2 ⟨bot_lt_top, fun k _ => EReal.coe_lt_top _⟩
  have hbot : ⊥ < Finset.univ.fold max (⊥ : EReal) fun k => ((g k : ℝ) : EReal) :=
    lt_of_lt_of_le (EReal.bot_lt_coe _) (hle k0)
  refine ⟨_, (EReal.coe_toReal htop.ne hbot.ne').symm, fun k => ?_⟩
  have h := hle k
  rw [← EReal.coe_toReal htop.ne hbot.ne'] at h
  exact EReal.coe_le_coe_iff.1 h

/-- The round trip of one block: with `M` the largest absolute value of the block `r` (folded from `-∞`) and
    `s = max (M / 448) c` for a positive floor `c`, clipping `r k / s` to `[-448, 448]` and multiplying by `s` gives `r k`. -/
theorem dequant_block {ι : Type} [Fintype ι] (k0 : ι) (r : ι → ℝ) (c : ℝ) (hc : 0 < c) (k : ι) :
    min ((448 : ℝ) : EReal) (max ((-448 : ℝ) : EReal) (Ideal.div ((r k : ℝ) : EReal)
        (max (Ideal.div (Finset.univ.fold max (⊥ : EReal) fun l => max ((r l : ℝ) : EReal) (-((r l : ℝ) : EReal)))
          ((448 : ℝ) : EReal)) ((c : ℝ) : EReal))))
      * max (Ideal.div (Finset.univ.fold max (⊥ : EReal) fun l => max ((r l : ℝ) : EReal) (-((r l : ℝ) : EReal)))
          ((448 : ℝ) : EReal)) ((c : ℝ) : EReal)
      = ((r k : ℝ) : EReal) := by
  have habs : (fun l => max ((r l : ℝ) : EReal) (-((r l : ℝ) : EReal))) = fun l => ((|r l| : ℝ) : EReal) :=
    funext fun l => max_neg_coe (r l)
  rw [habs]
  obtain ⟨M, hM, hle⟩ := fold_max_real k0 (fun l => |r l|)
  rw [hM, Ideal.div_coe (by norm_num : (448 : ℝ) ≠ 0), ← EReal.coe_mul, ← coe_max]
  have hs : 0 < max (M * (1 / 448)) c := lt_max_of_lt_right hc
  rw [Ideal.div_coe hs.ne', ← EReal.coe_mul, ← coe_max, ← coe_min, ← EReal.coe_mul, EReal.coe_eq_coe_iff]
  have h1 : |r k| ≤ 448 * max (M * (1 / 448)) c := by
    have h0 := hle k
    have h2 : M * (1 / 448) ≤ max (M * (1 / 448)) c := le_max_left _ _
    linarith
  have h2 : |r k * (1 / max (M * (1 / 448)) c)| ≤ 448 := by
    rw [abs_mul, abs_of_pos (one_div_pos.2 hs), mul_one_div, div_le_iff₀ hs]
    exact h1
  obtain ⟨h3, h4⟩ := abs_le.1 h2
  rw [max_eq_right h3, min_eq_right h4]
  field_simp

end Cert.RefAlgebra

end
-- ==== Proof.RefValue.lean ====
/-
  The reference's result, read index by index on the extended reals.

  The reference cuts each row of the activations into 32 blocks of 128 columns, quantizes every block by its own scale
  (the block's largest absolute value over 448, floored by a small positive constant), clips, and multiplies by the scale
  again before the product with the dequantized weights. When the activations are real numbers that round trip is the
  identity (`RefAlgebra.dequant_block`), so the left operand of the product is the activations themselves; the right
  operand, read through its two reshapes and two broadcasts, is the quantized weight times the scale of its 128 × 128
  block. Hence the result at `(t, n)` is `(∑ k, x (t, k) · wq (n, k) · sc (n / 128, k / 128)) + b n`.

  Column `k` of a row lies in block `k / 128` at offset `k % 128`; the reshapes are row-major, so every index
  identity below is arithmetic of `k = 128 · (k / 128) + k % 128`.
-/
import proofs.«122168_j27745488732276_2_alg».proof.Proof.Gen.ReferenceIdeal.Read
import proofs.«122168_j27745488732276_2_alg».proof.Proof.Spec
import proofs.«122168_j27745488732276_2_alg».proof.Proof.RefAlgebra

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Spec (blk)

/-- The offset of an index below 4096 inside its 128-block. -/
def off (a : Fin 4096) : Fin 128 := ⟨a.val % 128, Nat.mod_lt _ (by decide)⟩

/-- The index below 4096 at offset `l` of block `q`. -/
def col (q : Fin 32) (l : Fin 128) : Fin 4096 := ⟨q.val * 128 + l.val, by have := q.isLt; have := l.isLt; omega⟩

/-- An index is at its offset in its block. -/
theorem col_blk_off (a : Fin 4096) : col (blk a) (off a) = a :=
  Fin.ext (by show a.val / 128 * 128 + a.val % 128 = a.val; omega)

/-! ## The activations' side -/

/-- The blocked view of the activations at `(t, q, l)` is the activation at row `t`, column `128 q + l`. -/
theorem blocked_apply (x : (⟨S8192x4096, .f32⟩ : BufTy).Contents (Elt Ideal)) (t : Fin 8192) (q : Fin 32) (l : Fin 128) :
    val_main_v0 (F := Ideal) x (ix3 t q l) = x (ix2 t (col q l)) := by
  rw [val_main_v0_apply]
  refine congrArg x (funext fun a => Fin.ext ?_)
  have ht := t.isLt; have hq := q.isLt; have hl := l.isLt
  match a with
  | ⟨0, _⟩ => show ((t.val * 32 + q.val) * 128 + l.val) / 4096 = t.val; omega
  | ⟨1, _⟩ => show ((t.val * 32 + q.val) * 128 + l.val) % 4096 = q.val * 128 + l.val; omega

/-- The reduced index `(t, q)` with the coordinate `l` put back on the last axis is `(t, q, l)`. -/
theorem lift_ix3 (h : S8192x32x128.Reduces [2] S8192x32) (t : Fin 8192) (q : Fin 32) (l : Fin (S8192x32x128.size 2)) :
    h.lift (ix2 t q) l = ix3 t q (⟨l.val, l.isLt⟩ : Fin 128) := by
  funext c; apply Fin.ext
  fin_cases c <;> rfl

/-- The block maximum at `(t, q)`: the maximum, folded from `-∞`, of the absolute values of the block's 128 entries. -/
theorem blockmax_apply (x : (⟨S8192x4096, .f32⟩ : BufTy).Contents (Elt Ideal)) (t : Fin 8192) (q : Fin 32) :
    val_main_v2 (F := Ideal) x (ix2 t q)
      = Finset.univ.fold max (⊥ : EReal) (fun l : Fin 128 => max (x (ix2 t (col q l))) (-(x (ix2 t (col q l))))) := by
  have hR : S8192x32x128.Reduces [2] S8192x32 := by decide
  unfold val_main_v2
  rw [Host.reduce_eq_fold_single FloatOps.maximumf _ _ reducesTo_S8192x32x128_S8192x32_d2 hR h_S_]
  have hinit : val_main_cst (F := Ideal) (Shape.Idx.first h_S_) = (⊥ : EReal) := RefAlgebra.ofBits_neg_inf
  have hf : (val_main_v1 (F := Ideal) x ∘ hR.lift (ix2 t q))
      = fun l : Fin 128 => max (x (ix2 t (col q l))) (-(x (ix2 t (col q l)))) := funext fun l => by
    show val_main_v1 (F := Ideal) x (hR.lift (ix2 t q) l) = _
    rw [lift_ix3 hR t q l, val_main_v1_apply, blocked_apply]
    rfl
  rw [hinit]
  exact congrArg (fun f => Finset.fold max (⊥ : EReal) f (Finset.univ : Finset (Fin 128))) hf

/-- The scale of block `(t, q)`: the block maximum over 448, floored by the positive constant. -/
theorem scale_apply (x : (⟨S8192x4096, .f32⟩ : BufTy).Contents (Elt Ideal)) (t : Fin 8192) (q : Fin 32) :
    val_main_v7 (F := Ideal) x (ix3 t q (0 : Fin 1))
      = max (Ideal.div (val_main_v2 (F := Ideal) x (ix2 t q)) (Ideal.ofBits .f32 0x43E00000#32))
          (Ideal.ofBits .f32 0x2B8CBCCC#32) := by
  have h3 : idx_main_v3 (ix3 t q (0 : Fin 1)) = ix2 t q :=
    funext fun a => Fin.ext (by match a with | ⟨0, _⟩ => rfl | ⟨1, _⟩ => rfl)
  rw [val_main_v7_apply, val_main_v5_apply, val_main_v3_apply, val_main_v4_apply, val_main_v6_apply, h3]
  rfl

/-- With real activations, the quantized and dequantized activations are the activations. -/
theorem xdeq_apply (x : (⟨S8192x4096, .f32⟩ : BufTy).Contents (Elt Ideal)) (hx : ∀ i, ∃ r : ℝ, x i = (r : EReal))
    (t : Fin 8192) (k : Fin 4096) :
    val_main_v13 (F := Ideal) x (ix2 t k) = x (ix2 t k) := by
  have hj : idx_main_v13 (ix2 t k) = ix3 t (blk k) (off k) := funext fun a => Fin.ext (by
    have ht := t.isLt; have hk := k.isLt
    match a with
    | ⟨0, _⟩ => show (t.val * 4096 + k.val) / 4096 = t.val; omega
    | ⟨1, _⟩ => show (t.val * 4096 + k.val) / 128 % 32 = k.val / 128; omega
    | ⟨2, _⟩ => show (t.val * 4096 + k.val) % 128 = k.val % 128; omega)
  have h8 : idx_main_v8 (ix3 t (blk k) (off k)) = ix3 t (blk k) (0 : Fin 1) :=
    funext fun a => Fin.ext (by match a with | ⟨0, _⟩ => rfl | ⟨1, _⟩ => rfl | ⟨2, _⟩ => rfl)
  have h11 : idx_main_v11 (ix3 t (blk k) (off k)) = ix3 t (blk k) (0 : Fin 1) :=
    funext fun a => Fin.ext (by match a with | ⟨0, _⟩ => rfl | ⟨1, _⟩ => rfl | ⟨2, _⟩ => rfl)
  rw [val_main_v13_apply, hj, val_main_v12_apply, val_main_v10_apply, val_main_v11_apply, val_main_call0_v4_apply,
    val_main_call0_v2_apply, val_main_call0_v1_apply, val_main_v9_apply, val_main_v8_apply, blocked_apply, h8, h11,
    scale_apply, blockmax_apply]
  simp only [val_main_call0_v3_apply, val_main_cst_3_apply, val_main_call0_v0_apply, val_main_cst_2_apply,
    Ideal.ofBits_def, Ideal.minimumf_def, Ideal.maximumf_def, Ideal.mulf_def, Ideal.hostDivf_def]
  obtain ⟨c, hc, hce⟩ := RefAlgebra.ofBits_floor
  rw [RefAlgebra.ofBits_448, RefAlgebra.ofBits_neg448, hce]
  choose r hr using hx
  simp only [hr]
  exact (RefAlgebra.dequant_block (off k) (fun l : Fin 128 => r (ix2 t (col (blk k) l))) c hc (off k)).trans
    (congrArg (fun j => ((r (ix2 t j) : ℝ) : EReal)) (col_blk_off k))

/-! ## The weights' side -/

/-- The dequantized weights at `(n, k)`: the quantized entry times the scale of its 128 × 128 block. -/
theorem wdeq_apply (wq : (⟨S4096x4096, .f32⟩ : BufTy).Contents (Elt Ideal)) (sc : (⟨S32x32, .f32⟩ : BufTy).Contents (Elt Ideal))
    (n k : Fin 4096) :
    val_main_v18 (F := Ideal) wq sc (ix2 n k) = Cert.Spec.wdeq wq sc n k := by
  have hj : idx_main_v18 (ix2 n k) = ix4 (blk n) (off n) (blk k) (off k) := funext fun a => Fin.ext (by
    have hn := n.isLt; have hk := k.isLt
    match a with
    | ⟨0, _⟩ => show (n.val * 4096 + k.val) / 524288 = n.val / 128; omega
    | ⟨1, _⟩ => show (n.val * 4096 + k.val) / 4096 % 128 = n.val % 128; omega
    | ⟨2, _⟩ => show (n.val * 4096 + k.val) / 128 % 32 = k.val / 128; omega
    | ⟨3, _⟩ => show (n.val * 4096 + k.val) % 128 = k.val % 128; omega)
  have h14 : idx_main_v14 (ix4 (blk n) (off n) (blk k) (off k)) = ix2 n k := funext fun a => Fin.ext (by
    have hn := n.isLt; have hk := k.isLt
    match a with
    | ⟨0, _⟩ =>
      show (((n.val / 128 * 128 + n.val % 128) * 32 + k.val / 128) * 128 + k.val % 128) / 4096 = n.val; omega
    | ⟨1, _⟩ =>
      show (((n.val / 128 * 128 + n.val % 128) * 32 + k.val / 128) * 128 + k.val % 128) % 4096 = k.val; omega)
  have h15 : idx_main_v15 (idx_main_v16 (ix4 (blk n) (off n) (blk k) (off k))) = ix2 (blk n) (blk k) :=
    funext fun a => Fin.ext (by match a with | ⟨0, _⟩ => rfl | ⟨1, _⟩ => rfl)
  rw [val_main_v18_apply, hj, val_main_v17_apply, val_main_v14_apply, val_main_v16_apply, val_main_v15_apply, h14, h15]
  rfl

/-! ## The result -/

/-- With real activations the reference's result is `Cert.Spec.G` of its four arguments. -/
theorem ref_eq (x : (⟨S8192x4096, .f32⟩ : BufTy).Contents (Elt Ideal)) (wq : (⟨S4096x4096, .f32⟩ : BufTy).Contents (Elt Ideal))
    (sc : (⟨S32x32, .f32⟩ : BufTy).Contents (Elt Ideal)) (b : (⟨S4096, .f32⟩ : BufTy).Contents (Elt Ideal))
    (hx : ∀ i, ∃ r : ℝ, x i = (r : EReal)) :
    val_main_v22 (F := Ideal) x wq sc b = Cert.Spec.G x wq sc b := by
  funext i
  obtain ⟨t, n, rfl⟩ : ∃ (t : Fin 8192) (n : Fin 4096), i = ix2 t n := ⟨i 0, i 1, eq_ix2 i⟩
  have hl : ∀ k : Fin 4096, lidx_main_v19 (ix2 t n) k = ix2 t k := fun k =>
    funext fun a => Fin.ext (by match a with | ⟨0, _⟩ => rfl | ⟨1, _⟩ => rfl)
  have hr : ∀ k : Fin 4096, ridx_main_v19 (ix2 t n) k = ix2 n k := fun k =>
    funext fun a => Fin.ext (by match a with | ⟨0, _⟩ => rfl | ⟨1, _⟩ => rfl)
  have hb : idx_main_v20 (idx_main_v21 (ix2 t n)) = ix1 n :=
    funext fun a => Fin.ext (by match a with | ⟨0, _⟩ => rfl)
  rw [val_main_v22_apply, val_main_v19_apply, val_main_v21_apply, val_main_v20_apply, hb]
  simp only [hl, hr, xdeq_apply x hx, wdeq_apply]
  rfl

end Cert.ReferenceIdeal.RefValue

end
-- ==== Proof.RefFinite.lean ====
/-
  From the precondition to "every activation is a real number".

  The precondition is a conjunction of four `all (|a| < +∞)`, one per argument array, printed as reductions by `and`
  from the constant one. Its first conjunct, read at an index, says `|x i| < +∞` on the extended reals, where the
  absolute value is `max (x i) (-(x i))`: that excludes both infinities, so `x i` is the inclusion of a real.
-/
import proofs.«122168_j27745488732276_2_alg».proof.Pre_finite_inputs
import Idealize.ShloMosaic.PureOps.Ideal
import Idealize.ShloMosaic.Lib.ReduceAll
import Idealize.ShloMosaic.Lib.ValueIdx

noncomputable section

namespace Cert.RefFinite

open Idealize.ShloMosaic Idealize.ShloMosaic.ValueIdx

/-- The scalar shape has one index. -/
instance : Subsingleton Cert.Pre_finite_inputs.S_.Idx := ⟨fun a b => funext fun d => d.elim0⟩

/-- An extended real whose absolute value `max y (-y)` is below `+∞` is a real. -/
theorem real_of_abs_lt_top (y : EReal) (h : max y (-y) < (⊤ : EReal)) : ∃ r : ℝ, y = (r : EReal) := by
  induction y using EReal.rec with
  | bot => simp at h
  | coe r => exact ⟨r, rfl⟩
  | top => simp at h

/-- Under the precondition every entry of the first argument (the activations) is a real number. -/
theorem finite_of_pre [Cert.Pre_finite_inputs.Facts]
    (a0 : FVec Ideal Cert.Pre_finite_inputs.S8192x4096 .f32) (a1 : FVec Ideal Cert.Pre_finite_inputs.S4096x4096 .f32)
    (a2 : FVec Ideal Cert.Pre_finite_inputs.S32x32 .f32) (a3 : FVec Ideal Cert.Pre_finite_inputs.S4096 .f32)
    (h : Cert.Pre_finite_inputs.fn (F := Ideal) a0 a1 a2 a3 = (fun _ => 1#1)) :
    ∀ i, ∃ r : ℝ, a0 i = (r : EReal) := by
  have h0 := congrFun h ix0
  dsimp only [Cert.Pre_finite_inputs.fn, Cert.Pre_finite_inputs.fn_part1] at h0
  obtain ⟨h1, _⟩ := IntOp.andi_eq_one.1 h0
  obtain ⟨h2, _⟩ := IntOp.andi_eq_one.1 h1
  obtain ⟨h3, _⟩ := IntOp.andi_eq_one.1 h2
  intro i
  have hi := Host.reduce_andi_all _ _ _ _ _ h3 i
  have hi' : Ideal.cmp .olt (max (a0 i) (-(a0 i))) (Ideal.ofBits .f32 0x7F800000#32) = 1#1 := hi
  have e : Ideal.ofBits .f32 0x7F800000#32 = (⊤ : EReal) := by simp [Ideal.ofBits, Ideal.ieee]
  rw [e] at hi'
  refine real_of_abs_lt_top (a0 i) ?_
  by_contra hn
  have h0' : Ideal.cmp .olt (max (a0 i) (-(a0 i))) (⊤ : EReal) = 0#1 := by simp [Ideal.cmp, hn]
  rw [h0'] at hi'
  exact absurd hi' (by decide)

end Cert.RefFinite

end
-- ==== Proof.lean ====
/-
  The certificate's five claims for the block-quantized matrix product `y = x · wdeqᵀ + bias`.

  The kernel dequantizes the weights in a first grid (each 128 × 128 block of `wq` times its scale) and in a second
  grid of 4 × 4 × 4 points accumulates, over the four blocks of the contraction, the product of a block of `x` with a
  block of the dequantized weights, adding the bias when the last block is in. The reference first quantizes the
  activations per 128-column block and dequantizes them again, `clip (x / s, -448, 448) · s` with
  `s = max (max |x| / 448, c)` for a positive constant `c`; on real activations that round trip is the identity (the clip
  never binds, and `(x / s) · s = x` for a positive real `s`), so both programs compute
  `(t, n) ↦ (∑ k, x (t, k) · (wq (n, k) · sc (n / 128, k / 128))) + bias n` — the kernel's four partial sums and the
  reference's one sum agree because addition on the extended reals is commutative and associative. The precondition
  (every input finite) is used for the activations only.

  The three frames: each program runs to the end, nothing faulting, and leaves its arguments unchanged — for the two
  kernel programs from the run over the program's segments (two host stretches and two kernel regions, the second
  carrying its accumulator between grid points), for the reference from its generated run.
-/
import proofs.«122168_j27745488732276_2_alg».proof.Defs
import proofs.«122168_j27745488732276_2_alg».proof.Proof.Gen.Kernel
import proofs.«122168_j27745488732276_2_alg».proof.Proof.Gen.Kernel.Skeleton
import proofs.«122168_j27745488732276_2_alg».proof.Proof.Gen.Kernel.Launch
import proofs.«122168_j27745488732276_2_alg».proof.Proof.Gen.Kernel.Regions
import proofs.«122168_j27745488732276_2_alg».proof.Proof.Gen.Kernel.Points
import proofs.«122168_j27745488732276_2_alg».proof.Proof.Gen.KernelIdeal
import proofs.«122168_j27745488732276_2_alg».proof.Proof.Gen.KernelIdeal.Skeleton
import proofs.«122168_j27745488732276_2_alg».proof.Proof.Gen.KernelIdeal.Launch
import proofs.«122168_j27745488732276_2_alg».proof.Proof.Gen.KernelIdeal.Regions
import proofs.«122168_j27745488732276_2_alg».proof.Proof.Gen.KernelIdeal.Points
import proofs.«122168_j27745488732276_2_alg».proof.Proof.Gen.ReferenceIdeal
import proofs.«122168_j27745488732276_2_alg».proof.Proof.Gen.Pre_finite_inputs
import proofs.«122168_j27745488732276_2_alg».proof.Proof.Gen.ReferenceIdeal.Run
import proofs.«122168_j27745488732276_2_alg».proof.Proof.Gen.ReferenceIdeal.Read
import proofs.«122168_j27745488732276_2_alg».proof.Proof.KFrameRun
import proofs.«122168_j27745488732276_2_alg».proof.Proof.FrameRun
import proofs.«122168_j27745488732276_2_alg».proof.Proof.KFinal
import proofs.«122168_j27745488732276_2_alg».proof.Proof.RefValue
import proofs.«122168_j27745488732276_2_alg».proof.Proof.RefFinite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with `Cert.Spec.G` of the arguments in their result array. -/
theorem algebraic : Cert.algebraic_KernelIdeal_ReferenceIdeal := by
  intro m ρ m' ρ' hpre hagree
  have hx : ∀ c : Dev Cert.ReferenceIdeal.nD, ∀ i, ∃ r : ℝ,
      m' ((c.tc : Thread Cert.ReferenceIdeal.nD Cert.ReferenceIdeal.τ).loc Cert.ReferenceIdeal.main_arg0) i = (r : EReal) := fun c => by
    rw [(hagree c).1]
    exact Cert.RefFinite.finite_of_pre _ _ _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v5 (by decide))).trans (Cert.KernelIdeal.Hand.kernel_value m ρ c),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c)⟩
  · refine (θ_run Cert.ReferenceIdeal.defs _ _).mono (fun _ h c => ⟨?_, (h c).2⟩) (Cert.ReferenceIdeal.Value.run (F := Ideal) m' ρ')
    rw [(h c).1, Cert.ReferenceIdeal.Read.val_main_v22_eq, Cert.ReferenceIdeal.RefValue.ref_eq _ _ _ _ (hx c),
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
